-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S10000x256 : Shape := ⟨2, ![10000, 256]⟩
abbrev S256x256 : Shape := ⟨2, ![256, 256]⟩
abbrev S256 : Shape := ⟨1, ![256]⟩
abbrev S50000x1 : Shape := ⟨2, ![50000, 1]⟩
abbrev S10000x1 : Shape := ⟨2, ![10000, 1]⟩
abbrev S400000x1 : Shape := ⟨2, ![400000, 1]⟩
abbrev S400000 : Shape := ⟨1, ![400000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S50000x1 : S_.BroadcastsInDim S50000x1 (![] : Fin 0 → Fin S50000x1.rank)
  reducesTo_S50000x1_S_d0_1 : S50000x1.ReducesTo [0, 1] S_
  bcast_S_S10000x1 : S_.BroadcastsInDim S10000x1 (![] : Fin 0 → Fin S10000x1.rank)
  reducesTo_S10000x1_S_d0_1 : S10000x1.ReducesTo [0, 1] S_
  bcast_S_S400000x1 : S_.BroadcastsInDim S400000x1 (![] : Fin 0 → Fin S400000x1.rank)
  reducesTo_S400000x1_S_d0_1 : S400000x1.ReducesTo [0, 1] S_

variable [Facts]

def fn_part3 {F : FTy → Type} [FloatOps F] (main_arg11 : FVec F S50000x1 .f32) (main_v48 : IVec S_ 1) (main_v49 : FVec F S10000x1 .f32) (main_v50 : FVec F S10000x1 .f32) : IVec S_ 1 :=
  let main_v51 : IVec S10000x1 1 := cmpf .olt main_v49 main_v50
  let main_c_19 : IVec S_ 1 := constantI S_ 1 1#1
  let main_v52 : IVec S_ 1 := (fun x v => Host.reduce IntOp.andi x v reducesTo_S10000x1_S_d0_1 h_S_) main_v51 main_c_19
  let main_v53 : IVec S_ 1 := andi main_v48 main_v52
  let main_v54 : FVec F S50000x1 .f32 := Host.absf main_arg11
  let main_cst_20 : FVec F S_ .f32 := constant S_ .f32 0x7F800000#32
  let main_v55 : FVec F S50000x1 .f32 := broadcastInDim S50000x1 ![] bcast_S_S50000x1 main_cst_20
  let main_v56 : IVec S50000x1 1 := cmpf .olt main_v54 main_v55
  let main_c_21 : IVec S_ 1 := constantI S_ 1 1#1
  let main_v57 : IVec S_ 1 := (fun x v => Host.reduce IntOp.andi x v reducesTo_S50000x1_S_d0_1 h_S_) main_v56 main_c_21
  let main_v58 : IVec S_ 1 := andi main_v53 main_v57
  main_v58

def fn_part2 {F : FTy → Type} [FloatOps F] (main_arg7 : FVec F S10000x1 .f32) (main_arg8 : FVec F S400000x1 .f32) (main_arg9 : FVec F S400000x1 .f32) (main_arg10 : FVec F S10000x1 .f32) (main_arg11 : FVec F S50000x1 .f32) (main_v33 : IVec S_ 1) : IVec S_ 1 :=
  let main_v34 : FVec F S10000x1 .f32 := Host.absf main_arg7
  let main_cst_12 : FVec F S_ .f32 := constant S_ .f32 0x7F800000#32
  let main_v35 : FVec F S10000x1 .f32 := broadcastInDim S10000x1 ![] bcast_S_S10000x1 main_cst_12
  let main_v36 : IVec S10000x1 1 := cmpf .olt main_v34 main_v35
  let main_c_13 : IVec S_ 1 := constantI S_ 1 1#1
  let main_v37 : IVec S_ 1 := (fun x v => Host.reduce IntOp.andi x v reducesTo_S10000x1_S_d0_1 h_S_) main_v36 main_c_13
  let main_v38 : IVec S_ 1 := andi main_v33 main_v37
  let main_v39 : FVec F S400000x1 .f32 := Host.absf main_arg8
  let main_cst_14 : FVec F S_ .f32 := constant S_ .f32 0x7F800000#32
  let main_v40 : FVec F S400000x1 .f32 := broadcastInDim S400000x1 ![] bcast_S_S400000x1 main_cst_14
  let main_v41 : IVec S400000x1 1 := cmpf .olt main_v39 main_v40
  let main_c_15 : IVec S_ 1 := constantI S_ 1 1#1
  let main_v42 : IVec S_ 1 := (fun x v => Host.reduce IntOp.andi x v reducesTo_S400000x1_S_d0_1 h_S_) main_v41 main_c_15
  let main_v43 : IVec S_ 1 := andi main_v38 main_v42
  let main_v44 : FVec F S400000x1 .f32 := Host.absf main_arg9
  let main_cst_16 : FVec F S_ .f32 := constant S_ .f32 0x7F800000#32
  let main_v45 : FVec F S400000x1 .f32 := broadcastInDim S400000x1 ![] bcast_S_S400000x1 main_cst_16
  let main_v46 : IVec S400000x1 1 := cmpf .olt main_v44 main_v45
  let main_c_17 : IVec S_ 1 := constantI S_ 1 1#1
  let main_v47 : IVec S_ 1 := (fun x v => Host.reduce IntOp.andi x v reducesTo_S400000x1_S_d0_1 h_S_) main_v46 main_c_17
  let main_v48 : IVec S_ 1 := andi main_v43 main_v47
  let main_v49 : FVec F S10000x1 .f32 := Host.absf main_arg10
  let main_cst_18 : FVec F S_ .f32 := constant S_ .f32 0x7F800000#32
  let main_v50 : FVec F S10000x1 .f32 := broadcastInDim S10000x1 ![] bcast_S_S10000x1 main_cst_18
  fn_part3 (F := F) main_arg11 main_v48 main_v49 main_v50

def fn_part1 {F : FTy → Type} [FloatOps F] (main_arg4 : FVec F S256x256 .f32) (main_arg5 : FVec F S256 .f32) (main_arg6 : FVec F S50000x1 .f32) (main_arg7 : FVec F S10000x1 .f32) (main_arg8 : FVec F S400000x1 .f32) (main_arg9 : FVec F S400000x1 .f32) (main_arg10 : FVec F S10000x1 .f32) (main_arg11 : FVec F S50000x1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S50000x1 .f32 := Host.absf main_arg6
  let main_cst_10 : FVec F S_ .f32 := constant S_ .f32 0x7F800000#32
  let main_v30 : FVec F S50000x1 .f32 := broadcastInDim S50000x1 ![] bcast_S_S50000x1 main_cst_10
  let main_v31 : IVec S50000x1 1 := cmpf .olt main_v29 main_v30
  let main_c_11 : IVec S_ 1 := constantI S_ 1 1#1
  let main_v32 : IVec S_ 1 := (fun x v => Host.reduce IntOp.andi x v reducesTo_S50000x1_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x256 .f32) (main_arg1 : FVec F S10000x256 .f32) (main_arg2 : FVec F S256x256 .f32) (main_arg3 : FVec F S256 .f32) (main_arg4 : FVec F S256x256 .f32) (main_arg5 : FVec F S256 .f32) (main_arg6 : FVec F S50000x1 .f32) (main_arg7 : FVec F S10000x1 .f32) (main_arg8 : FVec F S400000x1 .f32) (main_arg9 : FVec F S400000x1 .f32) (main_arg10 : FVec F S10000x1 .f32) (main_arg11 : FVec F S50000x1 .f32) (main_arg12 : IVec S400000 32) (main_arg13 : IVec S400000 32) (main_arg14 : IVec S400000 32) (main_arg15 : IVec S400000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S50000x256 : Shape := ⟨2, ![50000, 256]⟩
abbrev S10000x256 : Shape := ⟨2, ![10000, 256]⟩
abbrev S256x256 : Shape := ⟨2, ![256, 256]⟩
abbrev S256 : Shape := ⟨1, ![256]⟩
abbrev S50000x1 : Shape := ⟨2, ![50000, 1]⟩
abbrev S10000x1 : Shape := ⟨2, ![10000, 1]⟩
abbrev S400000x1 : Shape := ⟨2, ![400000, 1]⟩
abbrev S400000 : Shape := ⟨1, ![400000]⟩
abbrev S_ : Shape := ⟨0, ![]⟩
abbrev S400000x256 : Shape := ⟨2, ![400000, 256]⟩
abbrev S5000x256 : Shape := ⟨2, ![5000, 256]⟩
abbrev S5000x1 : Shape := ⟨2, ![5000, 1]⟩
abbrev S1x256 : Shape := ⟨2, ![1, 256]⟩
abbrev S2000x256 : Shape := ⟨2, ![2000, 256]⟩
abbrev S2000x1 : Shape := ⟨2, ![2000, 1]⟩

abbrev nBuf : Space → Nat
  | .hbm => 63
  | .vmem => 28
  | .smem => 0
  | _ => 0

abbrev bufTy : (tb : Table) → Fin (tcTables nBuf tb) → BufTy
  | .hbm, ⟨0, _⟩ => ⟨S50000x256, .f32⟩
  | .hbm, ⟨1, _⟩ => ⟨S10000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S50000x1, .f32⟩
  | .hbm, ⟨7, _⟩ => ⟨S10000x1, .f32⟩
  | .hbm, ⟨8, _⟩ => ⟨S400000x1, .f32⟩
  | .hbm, ⟨9, _⟩ => ⟨S400000x1, .f32⟩
  | .hbm, ⟨10, _⟩ => ⟨S10000x1, .f32⟩
  | .hbm, ⟨11, _⟩ => ⟨S50000x1, .f32⟩
  | .hbm, ⟨12, _⟩ => ⟨S400000, .i32⟩
  | .hbm, ⟨13, _⟩ => ⟨S400000, .i32⟩
  | .hbm, ⟨14, _⟩ => ⟨S400000, .i32⟩
  | .hbm, ⟨15, _⟩ => ⟨S400000, .i32⟩
  | .hbm, ⟨16, _⟩ => ⟨S256x256, .f32⟩
  | .hbm, ⟨17, _⟩ => ⟨S256x256, .f32⟩
  | .hbm, ⟨18, _⟩ => ⟨S50000x256, .f32⟩
  | .hbm, ⟨19, _⟩ => ⟨S50000x256, .f32⟩
  | .hbm, ⟨20, _⟩ => ⟨S_, .i32⟩
  | .hbm, ⟨21, _⟩ => ⟨S400000, .i32⟩
  | .hbm, ⟨22, _⟩ => ⟨S400000, .i1⟩
  | .hbm, ⟨23, _⟩ => ⟨S_, .i32⟩
  | .hbm, ⟨24, _⟩ => ⟨S400000, .i32⟩
  | .hbm, ⟨25, _⟩ => ⟨S400000, .i32⟩
  | .hbm, ⟨26, _⟩ => ⟨S400000, .i32⟩
  | .hbm, ⟨27, _⟩ => ⟨S400000x1, .i32⟩
  | .hbm, ⟨28, _⟩ => ⟨S400000x256, .f32⟩
  | .hbm, ⟨29, _⟩ => ⟨S400000x256, .f32⟩
  | .hbm, ⟨30, _⟩ => ⟨S400000x256, .f32⟩
  | .hbm, ⟨31, _⟩ => ⟨S_, .i32⟩
  | .hbm, ⟨32, _⟩ => ⟨S400000, .i32⟩
  | .hbm, ⟨33, _⟩ => ⟨S400000, .i1⟩
  | .hbm, ⟨34, _⟩ => ⟨S_, .i32⟩
  | .hbm, ⟨35, _⟩ => ⟨S400000, .i32⟩
  | .hbm, ⟨36, _⟩ => ⟨S400000, .i32⟩
  | .hbm, ⟨37, _⟩ => ⟨S400000, .i32⟩
  | .hbm, ⟨38, _⟩ => ⟨S400000x1, .i32⟩
  | .hbm, ⟨39, _⟩ => ⟨S10000x256, .f32⟩
  | .hbm, ⟨40, _⟩ => ⟨S10000x256, .f32⟩
  | .hbm, ⟨41, _⟩ => ⟨S10000x256, .f32⟩
  | .hbm, ⟨42, _⟩ => ⟨S_, .i32⟩
  | .hbm, ⟨43, _⟩ => ⟨S400000, .i32⟩
  | .hbm, ⟨44, _⟩ => ⟨S400000, .i1⟩
  | .hbm, ⟨45, _⟩ => ⟨S_, .i32⟩
  | .hbm, ⟨46, _⟩ => ⟨S400000, .i32⟩
  | .hbm, ⟨47, _⟩ => ⟨S400000, .i32⟩
  | .hbm, ⟨48, _⟩ => ⟨S400000, .i32⟩
  | .hbm, ⟨49, _⟩ => ⟨S400000x1, .i32⟩
  | .hbm, ⟨50, _⟩ => ⟨S400000x256, .f32⟩
  | .hbm, ⟨51, _⟩ => ⟨S400000x256, .f32⟩
  | .hbm, ⟨52, _⟩ => ⟨S400000x256, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S50000x256, .f32⟩
  | .hbm, ⟨62, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x256, .f32⟩
  | .local _ .vmem, ⟨5, _⟩ => ⟨S256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S2000x256, .f32⟩
  | .local _ .vmem, ⟨11, _⟩ => ⟨S2000x256, .f32⟩
  | .local _ .vmem, ⟨12, _⟩ => ⟨S2000x1, .f32⟩
  | .local _ .vmem, ⟨13, _⟩ => ⟨S2000x1, .f32⟩
  | .local _ .vmem, ⟨14, _⟩ => ⟨S256x256, .f32⟩
  | .local _ .vmem, ⟨15, _⟩ => ⟨S256, .f32⟩
  | .local _ .vmem, ⟨16, _⟩ => ⟨S2000x1, .f32⟩
  | .local _ .vmem, ⟨17, _⟩ => ⟨S2000x1, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S5000x256, .f32⟩
  | .local _ .vmem, ⟨23, _⟩ => ⟨S5000x256, .f32⟩
  | .local _ .vmem, ⟨24, _⟩ => ⟨S5000x1, .f32⟩
  | .local _ .vmem, ⟨25, _⟩ => ⟨S5000x1, .f32⟩
  | .local _ .vmem, ⟨26, _⟩ => ⟨S5000x256, .f32⟩
  | .local _ .vmem, ⟨27, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2_0 : Ref sig .tc := ⟨.hbm, 18, rfl⟩
abbrev main_call0_v2_1 : Ref sig .tc := ⟨.hbm, 19, rfl⟩
abbrev main_call0_c : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_1 : Ref sig .tc := ⟨.hbm, 31, rfl⟩
abbrev main_call0_v12 : Ref sig .tc := ⟨.hbm, 32, rfl⟩
abbrev main_call0_v13 : Ref sig .tc := ⟨.hbm, 33, rfl⟩
abbrev main_call0_c_2 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_v0_1 : Ref sig .tc := ⟨.hbm, 40, rfl⟩
abbrev main_call0_v19_1 : Ref sig .tc := ⟨.hbm, 41, rfl⟩
abbrev main_call0_c_3 : Ref sig .tc := ⟨.hbm, 42, rfl⟩
abbrev main_call0_v20 : Ref sig .tc := ⟨.hbm, 43, rfl⟩
abbrev main_call0_v21 : Ref sig .tc := ⟨.hbm, 44, rfl⟩
abbrev main_call0_c_4 : Ref sig .tc := ⟨.hbm, 45, rfl⟩
abbrev main_call0_v22 : Ref sig .tc := ⟨.hbm, 46, rfl⟩
abbrev main_call0_v23 : Ref sig .tc := ⟨.hbm, 47, rfl⟩
abbrev main_call0_v24 : Ref sig .tc := ⟨.hbm, 48, rfl⟩
abbrev main_call0_v25 : Ref sig .tc := ⟨.hbm, 49, rfl⟩
abbrev main_call0_v26 : Ref sig .tc := ⟨.hbm, 50, rfl⟩
abbrev main_call0_v27 : Ref sig .tc := ⟨.hbm, 51, rfl⟩
abbrev main_call0_v28 : Ref sig .tc := ⟨.hbm, 52, rfl⟩
abbrev main_call0_c_5 : Ref sig .tc := ⟨.hbm, 53, rfl⟩
abbrev main_call0_v29 : Ref sig .tc := ⟨.hbm, 54, rfl⟩
abbrev main_call0_v30 : Ref sig .tc := ⟨.hbm, 55, rfl⟩
abbrev main_call0_c_6 : Ref sig .tc := ⟨.hbm, 56, rfl⟩
abbrev main_call0_v31 : Ref sig .tc := ⟨.hbm, 57, rfl⟩
abbrev main_call0_v32 : Ref sig .tc := ⟨.hbm, 58, rfl⟩
abbrev main_call0_v33 : Ref sig .tc := ⟨.hbm, 59, rfl⟩
abbrev main_call0_v34 : Ref sig .tc := ⟨.hbm, 60, rfl⟩
abbrev main_call0_v35 : Ref sig .tc := ⟨.hbm, 61, rfl⟩
abbrev main_v0_0 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S256x256_S256x256_1_0 : S256x256.Transposes [1, 0] S256x256
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  broadcasts_S5000x1_S5000x256 : S5000x1.Broadcasts S5000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  broadcasts_S2000x1_S2000x256 : S2000x1.Broadcasts S2000x256
  broadcasts_S1x256_S2000x256 : S1x256.Broadcasts S2000x256
  shapeCasts_S5000x256_S5000x256 : S5000x256.ShapeCasts S5000x256
  gather_S50000x256_S400000x1_S400000x256_1_0_n_n_0_1_1256_wf : GatherDims.WF S50000x256 S400000x1 S400000x256 [1] [0] [] [0] [] 1 ![1, 256]
  scatter_S10000x256_S400000x1_S400000x256_1_0_0_1_wf : ScatterDims.WF S10000x256 S400000x1 S400000x256 [1] [0] [0] 1
  gather_S10000x256_S400000x1_S400000x256_1_0_n_n_0_1_1256_wf : GatherDims.WF S10000x256 S400000x1 S400000x256 [1] [0] [] [0] [] 1 ![1, 256]
  scatter_S50000x256_S400000x1_S400000x256_1_0_0_1_wf : ScatterDims.WF S50000x256 S400000x1 S400000x256 [1] [0] [0] 1
  dot_S5000x256_S256x256_S5000x256_1_0_0_1_n_n_wf : DotDims.WF S5000x256 S256x256 S5000x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S50000x256.size a
  hwx0_4 : ∀ i : grid0.Coords, EltTy.bits .f32 = 32 ∨ (Rect.block (s := S50000x256) S5000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S10000x1.size a
  hwx1_1 : ∀ i : grid1.Coords, EltTy.bits .f32 = 32 ∨ (Rect.block (s := S10000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S10000x1.size a
  hwx1_4 : ∀ i : grid1.Coords, EltTy.bits .f32 = 32 ∨ (Rect.block (s := S10000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S10000x256.size a
  hwx1_5 : ∀ i : grid1.Coords, EltTy.bits .f32 = 32 ∨ (Rect.block (s := S10000x256) S2000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S10000x256.size a
  hwx1_6 : ∀ i : grid1.Coords, EltTy.bits .f32 = 32 ∨ (Rect.block (s := S10000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)

variable [Facts₀]

def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S10000x256_S400000x1_S400000x256_1_0_0_1 : ScatterDims S10000x256 S400000x1 S400000x256 where
  updateWindowDims := [1]
  insertedWindowDims := [0]
  scatterDimsToOperandDims := [0]
  indexVectorDim := 1
  wf := scatter_S10000x256_S400000x1_S400000x256_1_0_0_1_wf
def gather_S10000x256_S400000x1_S400000x256_1_0_n_n_0_1_1256 : GatherDims S10000x256 S400000x1 S400000x256 where
  offsetDims := [1]
  collapsedSliceDims := [0]
  operandBatchingDims := []
  startIndicesBatchingDims := []
  startIndexMap := [0]
  indexVectorDim := 1
  sliceSizes := ![1, 256]
  wf := gather_S10000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2_0) S5000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2_1) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v18) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_1) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v19_1) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v35) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S10000x256 : Shape := ⟨2, ![10000, 256]⟩
abbrev S256x256 : Shape := ⟨2, ![256, 256]⟩
abbrev S256 : Shape := ⟨1, ![256]⟩
abbrev S50000x1 : Shape := ⟨2, ![50000, 1]⟩
abbrev S10000x1 : Shape := ⟨2, ![10000, 1]⟩
abbrev S400000x1 : Shape := ⟨2, ![400000, 1]⟩
abbrev S400000 : Shape := ⟨1, ![400000]⟩
abbrev S1x256 : Shape := ⟨2, ![1, 256]⟩
abbrev S_ : Shape := ⟨0, ![]⟩
abbrev S400000x256 : Shape := ⟨2, ![400000, 256]⟩

abbrev nBuf : Space → Nat
  | .hbm => 82
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S10000x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S50000x1, .f32⟩
  | .hbm, ⟨7, _⟩ => ⟨S10000x1, .f32⟩
  | .hbm, ⟨8, _⟩ => ⟨S400000x1, .f32⟩
  | .hbm, ⟨9, _⟩ => ⟨S400000x1, .f32⟩
  | .hbm, ⟨10, _⟩ => ⟨S10000x1, .f32⟩
  | .hbm, ⟨11, _⟩ => ⟨S50000x1, .f32⟩
  | .hbm, ⟨12, _⟩ => ⟨S400000, .i32⟩
  | .hbm, ⟨13, _⟩ => ⟨S400000, .i32⟩
  | .hbm, ⟨14, _⟩ => ⟨S400000, .i32⟩
  | .hbm, ⟨15, _⟩ => ⟨S400000, .i32⟩
  | .hbm, ⟨16, _⟩ => ⟨S256x256, .f32⟩
  | .hbm, ⟨17, _⟩ => ⟨S50000x256, .f32⟩
  | .hbm, ⟨18, _⟩ => ⟨S1x256, .f32⟩
  | .hbm, ⟨19, _⟩ => ⟨S50000x256, .f32⟩
  | .hbm, ⟨20, _⟩ => ⟨S50000x256, .f32⟩
  | .hbm, ⟨21, _⟩ => ⟨S_, .f32⟩
  | .hbm, ⟨22, _⟩ => ⟨S50000x256, .f32⟩
  | .hbm, ⟨23, _⟩ => ⟨S50000x256, .f32⟩
  | .hbm, ⟨24, _⟩ => ⟨S50000x256, .f32⟩
  | .hbm, ⟨25, _⟩ => ⟨S50000x256, .f32⟩
  | .hbm, ⟨26, _⟩ => ⟨S50000x256, .f32⟩
  | .hbm, ⟨27, _⟩ => ⟨S50000x256, .f32⟩
  | .hbm, ⟨28, _⟩ => ⟨S_, .i32⟩
  | .hbm, ⟨29, _⟩ => ⟨S400000, .i32⟩
  | .hbm, ⟨30, _⟩ => ⟨S400000, .i1⟩
  | .hbm, ⟨31, _⟩ => ⟨S_, .i32⟩
  | .hbm, ⟨32, _⟩ => ⟨S400000, .i32⟩
  | .hbm, ⟨33, _⟩ => ⟨S400000, .i32⟩
  | .hbm, ⟨34, _⟩ => ⟨S400000, .i32⟩
  | .hbm, ⟨35, _⟩ => ⟨S400000x1, .i32⟩
  | .hbm, ⟨36, _⟩ => ⟨S400000x256, .f32⟩
  | .hbm, ⟨37, _⟩ => ⟨S400000x256, .f32⟩
  | .hbm, ⟨38, _⟩ => ⟨S400000x256, .f32⟩
  | .hbm, ⟨39, _⟩ => ⟨S_, .i32⟩
  | .hbm, ⟨40, _⟩ => ⟨S400000, .i32⟩
  | .hbm, ⟨41, _⟩ => ⟨S400000, .i1⟩
  | .hbm, ⟨42, _⟩ => ⟨S_, .i32⟩
  | .hbm, ⟨43, _⟩ => ⟨S400000, .i32⟩
  | .hbm, ⟨44, _⟩ => ⟨S400000, .i32⟩
  | .hbm, ⟨45, _⟩ => ⟨S400000, .i32⟩
  | .hbm, ⟨46, _⟩ => ⟨S400000x1, .i32⟩
  | .hbm, ⟨47, _⟩ => ⟨S10000x256, .f32⟩
  | .hbm, ⟨48, _⟩ => ⟨S10000x256, .f32⟩
  | .hbm, ⟨49, _⟩ => ⟨S10000x256, .f32⟩
  | .hbm, ⟨50, _⟩ => ⟨S256x256, .f32⟩
  | .hbm, ⟨51, _⟩ => ⟨S10000x256, .f32⟩
  | .hbm, ⟨52, _⟩ => ⟨S1x256, .f32⟩
  | .hbm, ⟨53, _⟩ => ⟨S10000x256, .f32⟩
  | .hbm, ⟨54, _⟩ => ⟨S10000x256, .f32⟩
  | .hbm, ⟨55, _⟩ => ⟨S_, .f32⟩
  | .hbm, ⟨56, _⟩ => ⟨S10000x256, .f32⟩
  | .hbm, ⟨57, _⟩ => ⟨S10000x256, .f32⟩
  | .hbm, ⟨58, _⟩ => ⟨S10000x256, .f32⟩
  | .hbm, ⟨59, _⟩ => ⟨S10000x256, .f32⟩
  | .hbm, ⟨60, _⟩ => ⟨S_, .i32⟩
  | .hbm, ⟨61, _⟩ => ⟨S400000, .i32⟩
  | .hbm, ⟨62, _⟩ => ⟨S400000, .i1⟩
  | .hbm, ⟨63, _⟩ => ⟨S_, .i32⟩
  | .hbm, ⟨64, _⟩ => ⟨S400000, .i32⟩
  | .hbm, ⟨65, _⟩ => ⟨S400000, .i32⟩
  | .hbm, ⟨66, _⟩ => ⟨S400000, .i32⟩
  | .hbm, ⟨67, _⟩ => ⟨S400000x1, .i32⟩
  | .hbm, ⟨68, _⟩ => ⟨S400000x256, .f32⟩
  | .hbm, ⟨69, _⟩ => ⟨S400000x256, .f32⟩
  | .hbm, ⟨70, _⟩ => ⟨S400000x256, .f32⟩
  | .hbm, ⟨71, _⟩ => ⟨S_, .i32⟩
  | .hbm, ⟨72, _⟩ => ⟨S400000, .i32⟩
  | .hbm, ⟨73, _⟩ => ⟨S400000, .i1⟩
  | .hbm, ⟨74, _⟩ => ⟨S_, .i32⟩
  | .hbm, ⟨75, _⟩ => ⟨S400000, .i32⟩
  | .hbm, ⟨76, _⟩ => ⟨S400000, .i32⟩
  | .hbm, ⟨77, _⟩ => ⟨S400000, .i32⟩
  | .hbm, ⟨78, _⟩ => ⟨S400000x1, .i32⟩
  | .hbm, ⟨79, _⟩ => ⟨S50000x256, .f32⟩
  | .hbm, ⟨80, _⟩ => ⟨S50000x256, .f32⟩
  | .hbm, ⟨81, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call0_cst : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_1 : Ref sig .tc := ⟨.hbm, 39, rfl⟩
abbrev main_v19 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call1_cst : Ref sig .tc := ⟨.hbm, 55, rfl⟩
abbrev main_call1_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_3 : Ref sig .tc := ⟨.hbm, 60, rfl⟩
abbrev main_v36 : Ref sig .tc := ⟨.hbm, 61, rfl⟩
abbrev main_v37 : Ref sig .tc := ⟨.hbm, 62, rfl⟩
abbrev main_c_4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_5 : Ref sig .tc := ⟨.hbm, 71, rfl⟩
abbrev main_v45 : Ref sig .tc := ⟨.hbm, 72, rfl⟩
abbrev main_v46 : Ref sig .tc := ⟨.hbm, 73, rfl⟩
abbrev main_c_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S10000x1_S10000x256_0_1 : S10000x1.BroadcastsInDim S10000x256 (![0, 1] : Fin 2 → Fin S10000x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S50000x256_S256x256_S50000x256_1_0_0_1_n_n_wf : DotDims.WF S50000x256 S256x256 S50000x256 [1] [0] [0] [1] [] []
  gather_S50000x256_S400000x1_S400000x256_1_0_n_n_0_1_1256_wf : GatherDims.WF S50000x256 S400000x1 S400000x256 [1] [0] [] [0] [] 1 ![1, 256]
  scatter_S10000x256_S400000x1_S400000x256_1_0_0_1_wf : ScatterDims.WF S10000x256 S400000x1 S400000x256 [1] [0] [0] 1
  dot_S10000x256_S256x256_S10000x256_1_0_0_1_n_n_wf : DotDims.WF S10000x256 S256x256 S10000x256 [1] [0] [0] [1] [] []
  gather_S10000x256_S400000x1_S400000x256_1_0_n_n_0_1_1256_wf : GatherDims.WF S10000x256 S400000x1 S400000x256 [1] [0] [] [0] [] 1 ![1, 256]
  scatter_S50000x256_S400000x1_S400000x256_1_0_0_1_wf : ScatterDims.WF S50000x256 S400000x1 S400000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S10000x256_S400000x1_S400000x256_1_0_0_1 : ScatterDims S10000x256 S400000x1 S400000x256 where
  updateWindowDims := [1]
  insertedWindowDims := [0]
  scatterDimsToOperandDims := [0]
  indexVectorDim := 1
  wf := scatter_S10000x256_S400000x1_S400000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S400000x1_S400000x256_1_0_n_n_0_1_1256 : GatherDims S10000x256 S400000x1 S400000x256 where
  offsetDims := [1]
  collapsedSliceDims := [0]
  operandBatchingDims := []
  startIndicesBatchingDims := []
  startIndexMap := [0]
  indexVectorDim := 1
  sliceSizes := ![1, 256]
  wf := gather_S10000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf

class Facts : Prop extends Facts₀ where

variable [Facts]
-- ==== Proof.KRun.lean ====
/-
  The idealized kernel program is three grid regions separated by stretches of host operations. Its run ends, on
  every core, with every unscoped buffer at the last segment boundary's contents: the fold through the program of
  each host stretch's operations and of each region's write-backs. Read here at the two result buffers (the vertex
  output and the hyperedge output) beside the sixteen argument buffers, which end as launched.
-/
import proofs.«152743_j77644418777859_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the vertex output buffer and the hyperedge
    output buffer end at the last boundary's contents, and every argument buffer ends as launched. -/
theorem run_results : θ_run defs (onTc (τ := τ) (main (F := F))) ⟨m, fun _ => 0, ρ⟩ (fun r => ∀ c : Dev nD,
      r.2.mem ((c.tc : Thread nD τ).loc main_v0_0) = W6 m ρ c (Proc.devRef .tc main_v0_0)
      ∧ r.2.mem ((c.tc : Thread nD τ).loc main_v0_1) = W6 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.KRun

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.LibDense.lean ====
/-
  The arithmetic the three kernels and the reference share, over the extended reals and over arbitrary extents.
  A dense layer entry: for a row `p` of an `[R, K]` array `x`, a `[K, N]` matrix `w`, a bias `b` of length `N` and an
  `[R, 1]` column of row weights, the entry `(p, q)` is `max (∑ k, x p k · w k q + b q) 0 · col p`. Beside it the two
  row-wise operations: an array times a column of row weights, and an array divided by a column of row normalizers.
  The lemmas read the kernels' vector operations (a matrix product into a zero accumulator, the bias viewed as one row
  and repeated over the rows, a column repeated over the lanes) at one index.
-/
import Idealize.ShloMosaic.Lib.Pipeline.Value
import Idealize.ShloMosaic.Lib.ValueIdx
import Idealize.ShloMosaic.Lib.ValueLayout
import Idealize.ShloMosaic.PureOps.Ideal.Laws
import proofs.«152743_j77644418777859_1_alg».proof.Proof.LibKeepdims

noncomputable section

namespace Cert.Dense

open Idealize.ShloMosaic Idealize.ShloMosaic.ValueIdx

/-- Entry `(p, q)` of the dense layer with relu and row weights. -/
def layerAt {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) (p : Fin R) (q : Fin N) : EReal :=
  max ((∑ k : Fin K, x (ix2 p k) * w (ix2 k q)) + b (ix1 q)) (Ideal.ofBits .f32 0x00000000#32) * col (ix2 p (0 : Fin 1))

/-- The dense layer as a whole array. -/
def layer {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) : FVec Ideal ⟨2, ![R, N]⟩ .f32 :=
  fun i => layerAt x w b col (i 0) (i 1)

/-- Every row of `x` times that row's weight. -/
def scaleRows {R N : ℕ} (x : FVec Ideal ⟨2, ![R, N]⟩ .f32) (col : FVec Ideal ⟨2, ![R, 1]⟩ .f32) : FVec Ideal ⟨2, ![R, N]⟩ .f32 :=
  fun i => x i * col (ix2 (i 0) (0 : Fin 1))

/-- Every row of `x` divided by that row's normalizer. -/
def divRows {R N : ℕ} (x : FVec Ideal ⟨2, ![R, N]⟩ .f32) (col : FVec Ideal ⟨2, ![R, 1]⟩ .f32) : FVec Ideal ⟨2, ![R, N]⟩ .f32 :=
  fun i => Ideal.div (x i) (col (ix2 (i 0) (0 : Fin 1)))

theorem layer_apply {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) (p : Fin R) (q : Fin N) :
    layer x w b col (ix2 p q) = layerAt x w b col p q := rfl

theorem scaleRows_apply {R N : ℕ} (x : FVec Ideal ⟨2, ![R, N]⟩ .f32) (col : FVec Ideal ⟨2, ![R, 1]⟩ .f32) (p : Fin R) (q : Fin N) :
    scaleRows x col (ix2 p q) = x (ix2 p q) * col (ix2 p (0 : Fin 1)) := rfl

theorem divRows_apply {R N : ℕ} (x : FVec Ideal ⟨2, ![R, N]⟩ .f32) (col : FVec Ideal ⟨2, ![R, 1]⟩ .f32) (p : Fin R) (q : Fin N) :
    divRows x col (ix2 p q) = Ideal.div (x (ix2 p q)) (col (ix2 p (0 : Fin 1))) := rfl

/-- A layer entry depends on row `p` of `x`, on `w`, on `b` and on the weight of row `p` only: two sets of operands that
    agree there give the same entry (a block of rows against the whole array). -/
theorem layerAt_congr {R R' K N : ℕ} (x : FVec Ideal ⟨2, ![R, K]⟩ .f32) (x' : FVec Ideal ⟨2, ![R', K]⟩ .f32)
    (w w' : FVec Ideal ⟨2, ![K, N]⟩ .f32) (b b' : FVec Ideal ⟨1, ![N]⟩ .f32)
    (col : FVec Ideal ⟨2, ![R, 1]⟩ .f32) (col' : FVec Ideal ⟨2, ![R', 1]⟩ .f32) (p : Fin R) (p' : Fin R') (q : Fin N)
    (hx : ∀ k : Fin K, x (ix2 p k) = x' (ix2 p' k)) (hw : w = w') (hb : b = b')
    (hc : col (ix2 p (0 : Fin 1)) = col' (ix2 p' (0 : Fin 1))) :
    layerAt x w b col p q = layerAt x' w' b' col' p' q := by
  subst hw; subst hb
  unfold layerAt
  rw [hc, Finset.sum_congr rfl fun k _ => by rw [hx k]]

/-- A matrix product into a zero accumulator, rows times columns with one contracted axis, read at `(p, q)`: the sum
    over `k` of `x p k · w k q`. The four hypotheses say which operand coordinates the dimension numbers pick. -/
theorem matmul_rows {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![K, N]⟩ .f32) (p : Fin R) (q : Fin N) :
    matmul d none x w (constant (F := Ideal) ⟨2, ![R, N]⟩ .f32 0x00000000#32) (ix2 p q) = ∑ k : Fin K, x (ix2 p k) * w (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The dense kernel body's arithmetic at `(p, q)`: the product into a zero accumulator, plus the bias viewed as one row
    and repeated over the rows, clamped below at zero, times the row-weight column repeated over the lanes — a layer
    entry. -/
theorem layer_payload {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (col : FVec Ideal ⟨2, ![R, 1]⟩ .f32) (w : FVec Ideal ⟨2, ![K, N]⟩ .f32)
    (b : FVec Ideal ⟨1, ![N]⟩ .f32)
    (hc1 : (⟨2, ![K, N]⟩ : Shape).ShapeCasts ⟨2, ![K, N]⟩) (hc2 : (⟨1, ![N]⟩ : Shape).ShapeCasts ⟨2, ![1, N]⟩)
    (hb1 : (⟨2, ![1, N]⟩ : Shape).Broadcasts ⟨2, ![R, N]⟩) (hb2 : (⟨2, ![R, 1]⟩ : Shape).Broadcasts ⟨2, ![R, N]⟩)
    (p : Fin R) (q : Fin N) :
    mulf (maximumf (addf (matmul d none x (shapeCast ⟨2, ![K, N]⟩ w hc1) (constant (F := Ideal) ⟨2, ![R, N]⟩ .f32 0x00000000#32))
        (broadcastTo ⟨2, ![R, N]⟩ (shapeCast ⟨2, ![1, N]⟩ b hc2) hb1))
        (broadcast ⟨2, ![R, N]⟩ (Scalar.ofBits (F := Ideal) .f32 0x00000000#32)))
      (broadcastTo ⟨2, ![R, N]⟩ col hb2) (ix2 p q)
    = layerAt x w b col p q := by
  rw [mulf_apply, maximumf_apply, addf_apply, broadcast_apply, matmul_rows d hr hs hl0 hl1 hr0 hr1,
    broadcastTo_1b_ab_apply, shapeCast_a_1a_apply, Cert.Keepdims.broadcastTo_a1_ab_apply, shapeCast_self]
  rfl

/-- An array times a column repeated over the lanes, at `(p, q)`. -/
theorem scale_payload {R N : ℕ} (x : FVec Ideal ⟨2, ![R, N]⟩ .f32) (col : FVec Ideal ⟨2, ![R, 1]⟩ .f32)
    (hb : (⟨2, ![R, 1]⟩ : Shape).Broadcasts ⟨2, ![R, N]⟩) (p : Fin R) (q : Fin N) :
    mulf x (broadcastTo ⟨2, ![R, N]⟩ col hb) (ix2 p q) = x (ix2 p q) * col (ix2 p (0 : Fin 1)) := by
  rw [mulf_apply, Cert.Keepdims.broadcastTo_a1_ab_apply]

/-- An array divided by a column repeated over the lanes, at `(p, q)`. -/
theorem div_payload {R N : ℕ} (x : FVec Ideal ⟨2, ![R, N]⟩ .f32) (col : FVec Ideal ⟨2, ![R, 1]⟩ .f32)
    (hc : (⟨2, ![R, N]⟩ : Shape).ShapeCasts ⟨2, ![R, N]⟩)
    (hb : (⟨2, ![R, 1]⟩ : Shape).Broadcasts ⟨2, ![R, N]⟩) (p : Fin R) (q : Fin N) :
    divf (shapeCast ⟨2, ![R, N]⟩ x hc) (broadcastTo ⟨2, ![R, N]⟩ col hb) (ix2 p q)
      = Ideal.div (x (ix2 p q)) (col (ix2 p (0 : Fin 1))) := by
  rw [divf_apply, Cert.Keepdims.broadcastTo_a1_ab_apply, shapeCast_self]

end Cert.Dense

end
-- ==== Proof.Region0.lean ====
/-
  The first kernel (vertex side): over a grid of ten row blocks of 5000 vertices it writes two arrays. Whatever the
  TensorCore's buffers hold when the region is entered, the first output array ends as the dense layer of the vertex
  features (times the transposed weight matrix the host prepared, plus the bias, clamped at zero, times each
  vertex's weight) and the second as the vertex features times each vertex's weight: point `t` writes rows
  `5000 t … 5000 t + 4999` of either, and the ten blocks cover the 50000 rows.
-/
import proofs.«152743_j77644418777859_1_alg».proof.Proof.Gen.KernelIdeal.Frame
import proofs.«152743_j77644418777859_1_alg».proof.Proof.LibDense
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Which operand coordinates the block product's dimension numbers pick -/

theorem dl0 (j : S5000x256.Idx) (q : dot_S5000x256_S256x256_S5000x256_1_0_0_1_n_n.contr.Idx) : (dot_S5000x256_S256x256_S5000x256_1_0_0_1_n_n.lhsIdx j q 0).val = (j 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem dl1 (j : S5000x256.Idx) (q : dot_S5000x256_S256x256_S5000x256_1_0_0_1_n_n.contr.Idx) : (dot_S5000x256_S256x256_S5000x256_1_0_0_1_n_n.lhsIdx j q 1).val = (q ⟨0, by decide⟩).val :=
  dot_S5000x256_S256x256_S5000x256_1_0_0_1_n_n.lhsIdx_val_of_single rfl j q
theorem dr0 (j : S5000x256.Idx) (q : dot_S5000x256_S256x256_S5000x256_1_0_0_1_n_n.contr.Idx) : (dot_S5000x256_S256x256_S5000x256_1_0_0_1_n_n.rhsIdx j q 0).val = (q ⟨0, by decide⟩).val :=
  dot_S5000x256_S256x256_S5000x256_1_0_0_1_n_n.rhsIdx_val_of_single rfl j q
theorem dr1 (j : S5000x256.Idx) (q : dot_S5000x256_S256x256_S5000x256_1_0_0_1_n_n.contr.Idx) : (dot_S5000x256_S256x256_S5000x256_1_0_0_1_n_n.rhsIdx j q 1).val = (j 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-! ## The body's stored values at an index of the block, against the whole arrays -/

/-- The dense layer's stored value at block index `j` is the layer entry at array index `i`, when the block's row `j 0` of
    the features and of the row weights is the arrays' row `i 0` and the lanes agree. -/
theorem layer_at (x0 : Vec Ideal S5000x256 .f32) (x1 : Vec Ideal S5000x1 .f32) (x2 : Vec Ideal S256x256 .f32) (x3 : Vec Ideal S256 .f32)
    (X : FVec Ideal ⟨2, ![50000, 256]⟩ .f32) (W : FVec Ideal ⟨2, ![256, 256]⟩ .f32) (B : FVec Ideal ⟨1, ![256]⟩ .f32)
    (C : FVec Ideal ⟨2, ![50000, 1]⟩ .f32) (j : S5000x256.Idx) (i : S50000x256.Idx)
    (hx : ∀ k : Fin 256, x0 (ix2 (j 0) k) = X (ix2 (i 0) k)) (hw : x2 = W) (hb : x3 = B)
    (hc : x1 (ix2 (j 0) (0 : Fin 1)) = C (ix2 (i 0) (0 : Fin 1))) (h1 : (j 1).val = (i 1).val) :
    k0_pay1 x0 x1 x2 x3 j = layer X W B C i := by
  obtain ⟨p, q, rfl⟩ : ∃ (p : Fin 5000) (q : Fin 256), j = ix2 p q := ⟨j 0, j 1, eq_ix2 j⟩
  obtain ⟨P, Q, rfl⟩ : ∃ (P : Fin 50000) (Q : Fin 256), i = ix2 P Q := ⟨i 0, i 1, eq_ix2 i⟩
  obtain rfl : q = Q := Fin.ext h1
  unfold k0_pay1
  exact (layer_payload (R := 5000) (K := 256) (N := 256) dot_S5000x256_S256x256_S5000x256_1_0_0_1_n_n rfl rfl dl0 dl1 dr0 dr1 x0 x1 x2 x3 _ _ _ _ p q).trans
    (layerAt_congr x0 X x2 W x3 B x1 C p P q hx hw hb hc)

/-- The second stored value at block index `j` is the weighted feature at array index `i`. -/
theorem scale_at (x0 : Vec Ideal S5000x256 .f32) (x1 : Vec Ideal S5000x1 .f32)
    (X : FVec Ideal ⟨2, ![50000, 256]⟩ .f32) (C : FVec Ideal ⟨2, ![50000, 1]⟩ .f32) (j : S5000x256.Idx) (i : S50000x256.Idx)
    (hx : x0 j = X i) (hc : x1 (ix2 (j 0) (0 : Fin 1)) = C (ix2 (i 0) (0 : Fin 1))) :
    k0_pay2 x0 x1 j = scaleRows X C i := by
  obtain ⟨p, q, rfl⟩ : ∃ (p : Fin 5000) (q : Fin 256), j = ix2 p q := ⟨j 0, j 1, eq_ix2 j⟩
  unfold k0_pay2
  refine (scale_payload (R := 5000) (N := 256) x0 x1 _ p q).trans ?_
  rw [hx, hc]
  rfl

/-! ## The index maps, decided over the grid: a row window is at block `t`, the weight matrix and the bias stay put -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## An input window's block at point `t`, read as rows of its array -/

theorem blk0 (c : Dev nD) (t : Fin cfg0.N) (y : S5000x256.Idx) (i : S50000x256.Idx)
    (h0 : (i 0).val = 5000 * t.val + (y 0).val) (h1 : (i 1).val = (y 1).val) :
    (iblk0 V c 0 t : Vec Ideal S5000x256 .f32) y = (V c main_arg0 : S50000x256.Idx → Elt Ideal .f32) i := by
  obtain ⟨e0, e1, -, -, -, -, -, -, -, -, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 256 + 1 * (y 1).val = (i 1).val; rw [e1, h1]; omega

theorem blk1 (c : Dev nD) (t : Fin cfg0.N) (y : S5000x1.Idx) (i : S50000x1.Idx)
    (h0 : (i 0).val = 5000 * t.val + (y 0).val) (h1 : (i 1).val = (y 1).val) :
    (iblk0 V c 1 t : Vec Ideal S5000x1 .f32) y = (V c main_arg6 : S50000x1.Idx → Elt Ideal .f32) i := by
  obtain ⟨-, -, e0, e1, -, -, -, -, -, -, -⟩ := idx_facts t
  unfold iblk0
  rw [View.read_apply]
  show V c main_arg6 _ = V c main_arg6 _
  congr 1
  funext a
  apply Fin.ext
  match a with
  | ⟨0, _⟩ => show win0_1.index t 0 * 5000 + 1 * (y 0).val = (i 0).val; rw [e0, h0]; omega
  | ⟨1, _⟩ => show win0_1.index t 1 * 1 + 1 * (y 1).val = (i 1).val; rw [e1, h1]; omega

theorem blk2 (c : Dev nD) (t : Fin cfg0.N) :
    (iblk0 V c 2 t : Vec Ideal S256x256 .f32) = (V c main_call0_v0 : S256x256.Idx → Elt Ideal .f32) := by
  obtain ⟨-, -, -, -, e0, e1, -, -, -, -, -⟩ := idx_facts t
  funext y
  unfold iblk0
  rw [View.read_apply]
  show V c main_call0_v0 _ = V c main_call0_v0 _
  congr 1
  funext a
  apply Fin.ext
  match a with
  | ⟨0, _⟩ => show win0_2.index t 0 * 256 + 1 * (y 0).val = (y 0).val; rw [e0]; omega
  | ⟨1, _⟩ => show win0_2.index t 1 * 256 + 1 * (y 1).val = (y 1).val; rw [e1]; omega

theorem blk3 (c : Dev nD) (t : Fin cfg0.N) :
    (iblk0 V c 3 t : Vec Ideal S256 .f32) = (V c main_arg3 : S256.Idx → Elt Ideal .f32) := by
  obtain ⟨-, -, -, -, -, -, e0, -, -, -, -⟩ := idx_facts t
  funext y
  unfold iblk0
  rw [View.read_apply]
  show V c main_arg3 _ = V c main_arg3 _
  congr 1
  funext a
  apply Fin.ext
  match a with
  | ⟨0, _⟩ => show win0_3.index t 0 * 256 + 1 * (y 0).val = (y 0).val; rw [e0]; omega

/-! ## Output window 4: what a point writes back, the cover, the whole array -/

/-- Point `t` writes back block `t` of the closed form. -/
theorem flushed4 (c : Dev nD) (t : Fin cfg0.N) :
    (dat0 V c).flushed 4 t = ((cfg0.win 4).blk t).view.read (Elt Ideal) (layer (R := 50000) (K := 256) (N := 256) (V c main_arg0) (V c main_call0_v0) (V c main_arg3) (V c main_arg6)) := by
  show (cfg0.win 4).cut (grid0.coords t) ((dat0 V c).after 4 t) = _
  rw [after0_4]
  unfold out0_4
  rw [View.canon_unit_zero hz2]
  simp only [View.ld_unit_zero (S := S5000x256) hz2, View.ld_unit_zero (S := S5000x1) hz2, View.ld_unit_zero (S := S256x256) hz2, View.ld_unit_zero (S := S256) hz1]
  obtain ⟨-, -, -, -, -, -, -, e0, e1, -, -⟩ := idx_facts t
  funext j
  have r0 : ((((cfg0.win 4).blk t).view.emb j) 0).val = 5000 * t.val + (j 0).val := by
    show win0_4.index t 0 * 5000 + 1 * (j 0).val = _; rw [e0]; omega
  have r1 : ((((cfg0.win 4).blk t).view.emb j) 1).val = (j 1).val := by
    show win0_4.index t 1 * 256 + 1 * (j 1).val = _; rw [e1]; omega
  rw [View.read_apply]
  show k0_pay1 (iblk0 V c 0 t) (iblk0 V c 1 t) (iblk0 V c 2 t) (iblk0 V c 3 t) ((cfg0.win 4).xinj (grid0.coords t) j)
    = (layer (R := 50000) (K := 256) (N := 256) (V c main_arg0) (V c main_call0_v0) (V c main_arg3) (V c main_arg6)) (((cfg0.win 4).blk t).view.emb j)
  refine layer_at (iblk0 V c 0 t) (iblk0 V c 1 t) (iblk0 V c 2 t) (iblk0 V c 3 t) (V c main_arg0) (V c main_call0_v0) (V c main_arg3) (V c main_arg6)
    ((cfg0.win 4).xinj (grid0.coords t) j) (((cfg0.win 4).blk t).view.emb j) (fun k => ?_) ?_ ?_ ?_ ?_
  · exact blk0 V c t _ _ r0 rfl
  · exact blk2 V c t
  · exact blk3 V c t
  · exact blk1 V c t _ _ r0 rfl
  · exact r1.symm

/-- An index of the array is in point `t`'s block iff each coordinate is in the block's range on its axis. -/
theorem mem_blk4 (t : Fin cfg0.N) (i : S50000x256.Idx) :
    i ∈ ((cfg0.win 4).blk t).view.set ↔ ∀ a : Fin 2, win0_4.index t a * S5000x256.size a ≤ (i a).val ∧ (i a).val < win0_4.index t a * S5000x256.size a + S5000x256.size a := by
  show i ∈ ((View.whole main_call0_v2_0).slice (win0_4.rect t)).set ↔ _
  rw [View.set_slice_whole, Rect.mem_set_unit]
  exact Iff.rfl

/-- Row `r` is in the block of point `r / 5000`. -/
theorem cover4 (i : S50000x256.Idx) : ∃ t : Fin cfg0.N, (cfg0.win 4).flush t = true ∧ i ∈ ((cfg0.win 4).blk t).view.set := by
  have hi0 : (i 0).val < 50000 := (i 0).isLt
  have hi1 : (i 1).val < 256 := (i 1).isLt
  have hN : grid0.N = 10 := N_0
  have ht : (i 0).val / 5000 < grid0.N := by rw [hN]; omega
  refine ⟨⟨(i 0).val / 5000, ht⟩, flush0_4 _, ?_⟩
  rw [mem_blk4]
  obtain ⟨-, -, -, -, -, -, -, e0, e1, -, -⟩ := idx_facts ⟨(i 0).val / 5000, ht⟩
  intro a
  match a with
  | ⟨0, _⟩ =>
    show win0_4.index ⟨(i 0).val / 5000, ht⟩ 0 * 5000 ≤ (i 0).val ∧ (i 0).val < win0_4.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win0_4.index ⟨(i 0).val / 5000, ht⟩ 1 * 256 ≤ (i 1).val ∧ (i 1).val < win0_4.index ⟨(i 0).val / 5000, ht⟩ 1 * 256 + 256
    rw [e1]
    omega

/-- The first output array after the region: the dense layer of the arrays as the region found them. -/
theorem final4 (c : Dev nD) : (dat0 V c).arrAt 4 cfg0.N = layer (R := 50000) (K := 256) (N := 256) (V c main_arg0) (V c main_call0_v0) (V c main_arg3) (V c main_arg6) :=
  (dat0 V c).arrAt_eq_of_cover 4 _ (fun t _ => flushed4 V c t) cover4

/-! ## Output window 5: what a point writes back, the cover, the whole array -/

/-- Point `t` writes back block `t` of the closed form. -/
theorem flushed5 (c : Dev nD) (t : Fin cfg0.N) :
    (dat0 V c).flushed 5 t = ((cfg0.win 5).blk t).view.read (Elt Ideal) (scaleRows (R := 50000) (N := 256) (V c main_arg0) (V c main_arg6)) := by
  show (cfg0.win 5).cut (grid0.coords t) ((dat0 V c).after 5 t) = _
  rw [after0_5]
  unfold out0_5
  rw [View.canon_unit_zero hz2]
  simp only [View.ld_unit_zero (S := S5000x256) hz2, View.ld_unit_zero (S := S5000x1) hz2, View.ld_unit_zero (S := S256x256) hz2, View.ld_unit_zero (S := S256) hz1]
  obtain ⟨-, -, -, -, -, -, -, -, -, e0, e1⟩ := idx_facts t
  funext j
  have r0 : ((((cfg0.win 5).blk t).view.emb j) 0).val = 5000 * t.val + (j 0).val := by
    show win0_5.index t 0 * 5000 + 1 * (j 0).val = _; rw [e0]; omega
  have r1 : ((((cfg0.win 5).blk t).view.emb j) 1).val = (j 1).val := by
    show win0_5.index t 1 * 256 + 1 * (j 1).val = _; rw [e1]; omega
  rw [View.read_apply]
  show k0_pay2 (iblk0 V c 0 t) (iblk0 V c 1 t) ((cfg0.win 5).xinj (grid0.coords t) j)
    = (scaleRows (R := 50000) (N := 256) (V c main_arg0) (V c main_arg6)) (((cfg0.win 5).blk t).view.emb j)
  refine scale_at (iblk0 V c 0 t) (iblk0 V c 1 t) (V c main_arg0) (V c main_arg6)
    ((cfg0.win 5).xinj (grid0.coords t) j) (((cfg0.win 5).blk t).view.emb j) ?_ ?_
  · exact blk0 V c t _ _ r0 r1
  · exact blk1 V c t _ _ r0 rfl

/-- An index of the array is in point `t`'s block iff each coordinate is in the block's range on its axis. -/
theorem mem_blk5 (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_call0_v2_1).slice (win0_5.rect t)).set ↔ _
  rw [View.set_slice_whole, Rect.mem_set_unit]
  exact Iff.rfl

/-- Row `r` is in the block of point `r / 5000`. -/
theorem cover5 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : grid0.N = 10 := N_0
  have ht : (i 0).val / 5000 < grid0.N := by rw [hN]; omega
  refine ⟨⟨(i 0).val / 5000, ht⟩, flush0_5 _, ?_⟩
  rw [mem_blk5]
  obtain ⟨-, -, -, -, -, -, -, -, -, e0, e1⟩ := idx_facts ⟨(i 0).val / 5000, ht⟩
  intro a
  match a with
  | ⟨0, _⟩ =>
    show win0_5.index ⟨(i 0).val / 5000, ht⟩ 0 * 5000 ≤ (i 0).val ∧ (i 0).val < win0_5.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ 1 * 256 ≤ (i 1).val ∧ (i 1).val < win0_5.index ⟨(i 0).val / 5000, ht⟩ 1 * 256 + 256
    rw [e1]
    omega

/-- The second output array after the region: the features times the row weights. -/
theorem final5 (c : Dev nD) : (dat0 V c).arrAt 5 cfg0.N = scaleRows (R := 50000) (N := 256) (V c main_arg0) (V c main_arg6) :=
  (dat0 V c).arrAt_eq_of_cover 5 _ (fun t _ => flushed5 V c t) cover5

end Cert.KernelIdeal.Reg0

end
-- ==== Proof.Region1.lean ====
/-
  The second kernel (hyperedge side): over a grid of five row blocks of 2000 hyperedges it writes two arrays. Whatever
  the TensorCore's buffers hold when the region is entered, the first output array ends as the accumulated hyperedge
  features divided row by row by each hyperedge's normalizer, and the second as the dense layer of those divided rows
  (times the transposed weight matrix the host prepared, plus the bias, clamped at zero, times each hyperedge's weight):
  point `t` writes rows `2000 t … 2000 t + 1999` of either, and the five blocks cover the 10000 rows.
-/
import proofs.«152743_j77644418777859_1_alg».proof.Proof.Gen.KernelIdeal.Frame
import proofs.«152743_j77644418777859_1_alg».proof.Proof.LibDense
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Which operand coordinates the block product's dimension numbers pick -/

theorem dl0 (j : S2000x256.Idx) (q : dot_S2000x256_S256x256_S2000x256_1_0_0_1_n_n.contr.Idx) : (dot_S2000x256_S256x256_S2000x256_1_0_0_1_n_n.lhsIdx j q 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem dl1 (j : S2000x256.Idx) (q : dot_S2000x256_S256x256_S2000x256_1_0_0_1_n_n.contr.Idx) : (dot_S2000x256_S256x256_S2000x256_1_0_0_1_n_n.lhsIdx j q 1).val = (q ⟨0, by decide⟩).val :=
  dot_S2000x256_S256x256_S2000x256_1_0_0_1_n_n.lhsIdx_val_of_single rfl j q
theorem dr0 (j : S2000x256.Idx) (q : dot_S2000x256_S256x256_S2000x256_1_0_0_1_n_n.contr.Idx) : (dot_S2000x256_S256x256_S2000x256_1_0_0_1_n_n.rhsIdx j q 0).val = (q ⟨0, by decide⟩).val :=
  dot_S2000x256_S256x256_S2000x256_1_0_0_1_n_n.rhsIdx_val_of_single rfl j q
theorem dr1 (j : S2000x256.Idx) (q : dot_S2000x256_S256x256_S2000x256_1_0_0_1_n_n.contr.Idx) : (dot_S2000x256_S256x256_S2000x256_1_0_0_1_n_n.rhsIdx j q 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-! ## The body's stored values at an index of the block, against the whole arrays -/

/-- The row-wise division's stored value at block index `j` is the divided entry at array index `i`. -/
theorem div_at (x0 : Vec Ideal S2000x256 .f32) (x1 : Vec Ideal S2000x1 .f32)
    (X : FVec Ideal ⟨2, ![10000, 256]⟩ .f32) (C : FVec Ideal ⟨2, ![10000, 1]⟩ .f32) (j : S2000x256.Idx) (i : S10000x256.Idx)
    (hx : x0 j = X i) (hc : x1 (ix2 (j 0) (0 : Fin 1)) = C (ix2 (i 0) (0 : Fin 1))) :
    k1_pay1 x0 x1 j = divRows X C i := by
  obtain ⟨p, q, rfl⟩ : ∃ (p : Fin 2000) (q : Fin 256), j = ix2 p q := ⟨j 0, j 1, eq_ix2 j⟩
  unfold k1_pay1
  refine (div_payload (R := 2000) (N := 256) x0 x1 _ _ p q).trans ?_
  rw [hx, hc]
  rfl

/-- The dense layer's stored value at block index `j`: the layer entry, at array index `i`, of the divided rows. -/
theorem layer_at (x0 : Vec Ideal S2000x256 .f32) (x1 : Vec Ideal S2000x1 .f32) (x2 : Vec Ideal S256x256 .f32) (x3 : Vec Ideal S256 .f32)
    (x4 : Vec Ideal S2000x1 .f32)
    (X : FVec Ideal ⟨2, ![10000, 256]⟩ .f32) (C : FVec Ideal ⟨2, ![10000, 1]⟩ .f32) (W : FVec Ideal ⟨2, ![256, 256]⟩ .f32)
    (B : FVec Ideal ⟨1, ![256]⟩ .f32) (C2 : FVec Ideal ⟨2, ![10000, 1]⟩ .f32) (j : S2000x256.Idx) (i : S10000x256.Idx)
    (hx : ∀ k : Fin 256, x0 (ix2 (j 0) k) = X (ix2 (i 0) k)) (hc : x1 (ix2 (j 0) (0 : Fin 1)) = C (ix2 (i 0) (0 : Fin 1)))
    (hw : x2 = W) (hb : x3 = B) (hc2 : x4 (ix2 (j 0) (0 : Fin 1)) = C2 (ix2 (i 0) (0 : Fin 1))) (h1 : (j 1).val = (i 1).val) :
    k1_pay2 x0 x1 x2 x3 x4 j = layer (divRows X C) W B C2 i := by
  obtain ⟨p, q, rfl⟩ : ∃ (p : Fin 2000) (q : Fin 256), j = ix2 p q := ⟨j 0, j 1, eq_ix2 j⟩
  obtain ⟨P, Q, rfl⟩ : ∃ (P : Fin 10000) (Q : Fin 256), i = ix2 P Q := ⟨i 0, i 1, eq_ix2 i⟩
  obtain rfl : q = Q := Fin.ext h1
  unfold k1_pay2
  exact (layer_payload (R := 2000) (K := 256) (N := 256) dot_S2000x256_S256x256_S2000x256_1_0_0_1_n_n rfl rfl dl0 dl1 dr0 dr1 (k1_pay1 x0 x1) x4 x2 x3 _ _ _ _ p q).trans
    (layerAt_congr (k1_pay1 x0 x1) (divRows X C) x2 W x3 B x4 C2 p P q
      (fun k => div_at x0 x1 X C (ix2 p k) (ix2 P k) (hx k) hc) hw hb hc2)

/-! ## The index maps, decided over the grid: a row window is at block `t`, the weight matrix and the bias stay put -/

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! ## An input window's block at point `t`, read as rows of its array -/

theorem blk0 (c : Dev nD) (t : Fin cfg1.N) (y : S2000x256.Idx) (i : S10000x256.Idx)
    (h0 : (i 0).val = 2000 * t.val + (y 0).val) (h1 : (i 1).val = (y 1).val) :
    (iblk1 V c 0 t : Vec Ideal S2000x256 .f32) y = (V c main_call0_v18 : S10000x256.Idx → Elt Ideal .f32) i := by
  obtain ⟨e0, e1, -, -, -, -, -, -, -, -, -, -, -⟩ := idx_facts t
  unfold iblk1
  rw [View.read_apply]
  show V c main_call0_v18 _ = V c main_call0_v18 _
  congr 1
  funext a
  apply Fin.ext
  match a with
  | ⟨0, _⟩ => show win1_0.index t 0 * 2000 + 1 * (y 0).val = (i 0).val; rw [e0, h0]; omega
  | ⟨1, _⟩ => show win1_0.index t 1 * 256 + 1 * (y 1).val = (i 1).val; rw [e1, h1]; omega

theorem blk1 (c : Dev nD) (t : Fin cfg1.N) (y : S2000x1.Idx) (i : S10000x1.Idx)
    (h0 : (i 0).val = 2000 * t.val + (y 0).val) (h1 : (i 1).val = (y 1).val) :
    (iblk1 V c 1 t : Vec Ideal S2000x1 .f32) y = (V c main_arg10 : S10000x1.Idx → Elt Ideal .f32) i := by
  obtain ⟨-, -, e0, e1, -, -, -, -, -, -, -, -, -⟩ := idx_facts t
  unfold iblk1
  rw [View.read_apply]
  show V c main_arg10 _ = V c main_arg10 _
  congr 1
  funext a
  apply Fin.ext
  match a with
  | ⟨0, _⟩ => show win1_1.index t 0 * 2000 + 1 * (y 0).val = (i 0).val; rw [e0, h0]; omega
  | ⟨1, _⟩ => show win1_1.index t 1 * 1 + 1 * (y 1).val = (i 1).val; rw [e1, h1]; omega

theorem blk2 (c : Dev nD) (t : Fin cfg1.N) :
    (iblk1 V c 2 t : Vec Ideal S256x256 .f32) = (V c main_call0_v1 : S256x256.Idx → Elt Ideal .f32) := by
  obtain ⟨-, -, -, -, e0, e1, -, -, -, -, -, -, -⟩ := idx_facts t
  funext y
  unfold iblk1
  rw [View.read_apply]
  show V c main_call0_v1 _ = V c main_call0_v1 _
  congr 1
  funext a
  apply Fin.ext
  match a with
  | ⟨0, _⟩ => show win1_2.index t 0 * 256 + 1 * (y 0).val = (y 0).val; rw [e0]; omega
  | ⟨1, _⟩ => show win1_2.index t 1 * 256 + 1 * (y 1).val = (y 1).val; rw [e1]; omega

theorem blk3 (c : Dev nD) (t : Fin cfg1.N) :
    (iblk1 V c 3 t : Vec Ideal S256 .f32) = (V c main_arg5 : S256.Idx → Elt Ideal .f32) := by
  obtain ⟨-, -, -, -, -, -, e0, -, -, -, -, -, -⟩ := idx_facts t
  funext y
  unfold iblk1
  rw [View.read_apply]
  show V c main_arg5 _ = V c main_arg5 _
  congr 1
  funext a
  apply Fin.ext
  match a with
  | ⟨0, _⟩ => show win1_3.index t 0 * 256 + 1 * (y 0).val = (y 0).val; rw [e0]; omega

theorem blk4 (c : Dev nD) (t : Fin cfg1.N) (y : S2000x1.Idx) (i : S10000x1.Idx)
    (h0 : (i 0).val = 2000 * t.val + (y 0).val) (h1 : (i 1).val = (y 1).val) :
    (iblk1 V c 4 t : Vec Ideal S2000x1 .f32) y = (V c main_arg7 : S10000x1.Idx → Elt Ideal .f32) i := by
  obtain ⟨-, -, -, -, -, -, -, e0, e1, -, -, -, -⟩ := idx_facts t
  unfold iblk1
  rw [View.read_apply]
  show V c main_arg7 _ = V c main_arg7 _
  congr 1
  funext a
  apply Fin.ext
  match a with
  | ⟨0, _⟩ => show win1_4.index t 0 * 2000 + 1 * (y 0).val = (i 0).val; rw [e0, h0]; omega
  | ⟨1, _⟩ => show win1_4.index t 1 * 1 + 1 * (y 1).val = (i 1).val; rw [e1, h1]; omega

/-! ## Output window 5: what a point writes back, the cover, the whole array -/

/-- Point `t` writes back block `t` of the closed form. -/
theorem flushed5 (c : Dev nD) (t : Fin cfg1.N) :
    (dat1 V c).flushed 5 t = ((cfg1.win 5).blk t).view.read (Elt Ideal) (divRows (R := 10000) (N := 256) (V c main_call0_v18) (V c main_arg10)) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S2000x1) hz2, View.ld_unit_zero (S := S256x256) hz2, View.ld_unit_zero (S := S256) hz1]
  obtain ⟨-, -, -, -, -, -, -, -, -, e0, e1, -, -⟩ := idx_facts t
  funext j
  have r0 : ((((cfg1.win 5).blk t).view.emb j) 0).val = 2000 * t.val + (j 0).val := by
    show win1_5.index t 0 * 2000 + 1 * (j 0).val = _; rw [e0]; omega
  have r1 : ((((cfg1.win 5).blk t).view.emb j) 1).val = (j 1).val := by
    show win1_5.index t 1 * 256 + 1 * (j 1).val = _; rw [e1]; omega
  rw [View.read_apply]
  show k1_pay1 (iblk1 V c 0 t) (iblk1 V c 1 t) ((cfg1.win 5).xinj (grid1.coords t) j)
    = (divRows (R := 10000) (N := 256) (V c main_call0_v18) (V c main_arg10)) (((cfg1.win 5).blk t).view.emb j)
  refine div_at (iblk1 V c 0 t) (iblk1 V c 1 t) (V c main_call0_v18) (V c main_arg10)
    ((cfg1.win 5).xinj (grid1.coords t) j) (((cfg1.win 5).blk t).view.emb j) ?_ ?_
  · exact blk0 V c t _ _ r0 r1
  · exact blk1 V c t _ _ r0 rfl

/-- An index of the array is in point `t`'s block iff each coordinate is in the block's range on its axis. -/
theorem mem_blk5 (t : Fin cfg1.N) (i : S10000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v0_1).slice (win1_5.rect t)).set ↔ _
  rw [View.set_slice_whole, Rect.mem_set_unit]
  exact Iff.rfl

/-- Row `r` is in the block of point `r / 2000`. -/
theorem cover5 (i : S10000x256.Idx) : ∃ t : Fin cfg1.N, (cfg1.win 5).flush t = true ∧ i ∈ ((cfg1.win 5).blk t).view.set := by
  have hi0 : (i 0).val < 10000 := (i 0).isLt
  have hi1 : (i 1).val < 256 := (i 1).isLt
  have hN : grid1.N = 5 := N_1
  have ht : (i 0).val / 2000 < grid1.N := by rw [hN]; omega
  refine ⟨⟨(i 0).val / 2000, ht⟩, flush1_5 _, ?_⟩
  rw [mem_blk5]
  obtain ⟨-, -, -, -, -, -, -, -, -, e0, e1, -, -⟩ := idx_facts ⟨(i 0).val / 2000, ht⟩
  intro a
  match a with
  | ⟨0, _⟩ =>
    show win1_5.index ⟨(i 0).val / 2000, ht⟩ 0 * 2000 ≤ (i 0).val ∧ (i 0).val < win1_5.index ⟨(i 0).val / 2000, ht⟩ 0 * 2000 + 2000
    rw [e0]
    show (i 0).val / 2000 * 2000 ≤ (i 0).val ∧ (i 0).val < (i 0).val / 2000 * 2000 + 2000
    omega
  | ⟨1, _⟩ =>
    show win1_5.index ⟨(i 0).val / 2000, ht⟩ 1 * 256 ≤ (i 1).val ∧ (i 1).val < win1_5.index ⟨(i 0).val / 2000, ht⟩ 1 * 256 + 256
    rw [e1]
    omega

/-- The first output array after the region: the rows as the region found them, each divided by its normalizer. -/
theorem final5 (c : Dev nD) : (dat1 V c).arrAt 5 cfg1.N = divRows (R := 10000) (N := 256) (V c main_call0_v18) (V c main_arg10) :=
  (dat1 V c).arrAt_eq_of_cover 5 _ (fun t _ => flushed5 V c t) cover5

/-! ## Output window 6: what a point writes back, the cover, the whole array -/

/-- Point `t` writes back block `t` of the closed form. -/
theorem flushed6 (c : Dev nD) (t : Fin cfg1.N) :
    (dat1 V c).flushed 6 t = ((cfg1.win 6).blk t).view.read (Elt Ideal) (layer (R := 10000) (K := 256) (N := 256) (divRows (R := 10000) (N := 256) (V c main_call0_v18) (V c main_arg10)) (V c main_call0_v1) (V c main_arg5) (V c main_arg7)) := by
  show (cfg1.win 6).cut (grid1.coords t) ((dat1 V c).after 6 t) = _
  rw [after1_6]
  unfold out1_6
  rw [View.canon_unit_zero hz2]
  simp only [View.ld_unit_zero (S := S2000x256) hz2, View.ld_unit_zero (S := S2000x1) hz2, View.ld_unit_zero (S := S256x256) hz2, View.ld_unit_zero (S := S256) hz1]
  obtain ⟨-, -, -, -, -, -, -, -, -, -, -, e0, e1⟩ := idx_facts t
  funext j
  have r0 : ((((cfg1.win 6).blk t).view.emb j) 0).val = 2000 * t.val + (j 0).val := by
    show win1_6.index t 0 * 2000 + 1 * (j 0).val = _; rw [e0]; omega
  have r1 : ((((cfg1.win 6).blk t).view.emb j) 1).val = (j 1).val := by
    show win1_6.index t 1 * 256 + 1 * (j 1).val = _; rw [e1]; omega
  rw [View.read_apply]
  show k1_pay2 (iblk1 V c 0 t) (iblk1 V c 1 t) (iblk1 V c 2 t) (iblk1 V c 3 t) (iblk1 V c 4 t) ((cfg1.win 6).xinj (grid1.coords t) j)
    = (layer (R := 10000) (K := 256) (N := 256) (divRows (R := 10000) (N := 256) (V c main_call0_v18) (V c main_arg10)) (V c main_call0_v1) (V c main_arg5) (V c main_arg7)) (((cfg1.win 6).blk t).view.emb j)
  refine layer_at (iblk1 V c 0 t) (iblk1 V c 1 t) (iblk1 V c 2 t) (iblk1 V c 3 t) (iblk1 V c 4 t)
    (V c main_call0_v18) (V c main_arg10) (V c main_call0_v1) (V c main_arg5) (V c main_arg7)
    ((cfg1.win 6).xinj (grid1.coords t) j) (((cfg1.win 6).blk t).view.emb j) (fun k => ?_) ?_ ?_ ?_ ?_ ?_
  · exact blk0 V c t _ _ r0 rfl
  · exact blk1 V c t _ _ r0 rfl
  · exact blk2 V c t
  · exact blk3 V c t
  · exact blk4 V c t _ _ r0 rfl
  · exact r1.symm

/-- An index of the array is in point `t`'s block iff each coordinate is in the block's range on its axis. -/
theorem mem_blk6 (t : Fin cfg1.N) (i : S10000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_call0_v19_1).slice (win1_6.rect t)).set ↔ _
  rw [View.set_slice_whole, Rect.mem_set_unit]
  exact Iff.rfl

/-- Row `r` is in the block of point `r / 2000`. -/
theorem cover6 (i : S10000x256.Idx) : ∃ t : Fin cfg1.N, (cfg1.win 6).flush t = true ∧ i ∈ ((cfg1.win 6).blk t).view.set := by
  have hi0 : (i 0).val < 10000 := (i 0).isLt
  have hi1 : (i 1).val < 256 := (i 1).isLt
  have hN : grid1.N = 5 := N_1
  have ht : (i 0).val / 2000 < grid1.N := by rw [hN]; omega
  refine ⟨⟨(i 0).val / 2000, ht⟩, flush1_6 _, ?_⟩
  rw [mem_blk6]
  obtain ⟨-, -, -, -, -, -, -, -, -, -, -, e0, e1⟩ := idx_facts ⟨(i 0).val / 2000, ht⟩
  intro a
  match a with
  | ⟨0, _⟩ =>
    show win1_6.index ⟨(i 0).val / 2000, ht⟩ 0 * 2000 ≤ (i 0).val ∧ (i 0).val < win1_6.index ⟨(i 0).val / 2000, ht⟩ 0 * 2000 + 2000
    rw [e0]
    show (i 0).val / 2000 * 2000 ≤ (i 0).val ∧ (i 0).val < (i 0).val / 2000 * 2000 + 2000
    omega
  | ⟨1, _⟩ =>
    show win1_6.index ⟨(i 0).val / 2000, ht⟩ 1 * 256 ≤ (i 1).val ∧ (i 1).val < win1_6.index ⟨(i 0).val / 2000, ht⟩ 1 * 256 + 256
    rw [e1]
    omega

/-- The second output array after the region: the dense layer of the divided rows. -/
theorem final6 (c : Dev nD) : (dat1 V c).arrAt 6 cfg1.N = layer (R := 10000) (K := 256) (N := 256) (divRows (R := 10000) (N := 256) (V c main_call0_v18) (V c main_arg10)) (V c main_call0_v1) (V c main_arg5) (V c main_arg7) :=
  (dat1 V c).arrAt_eq_of_cover 6 _ (fun t _ => flushed6 V c t) cover6

end Cert.KernelIdeal.Reg1

end
-- ==== Proof.Region2.lean ====
/-
  The third kernel (the vertex normalization): over a grid of ten row blocks of 5000 vertices it writes one array.
  Whatever the TensorCore's buffers hold when the region is entered, the output array ends as the accumulated vertex
  features divided row by row by each vertex's normalizer: point `t` writes rows `5000 t … 5000 t + 4999`, and the ten
  blocks cover the 50000 rows.
-/
import proofs.«152743_j77644418777859_1_alg».proof.Proof.Gen.KernelIdeal.Frame
import proofs.«152743_j77644418777859_1_alg».proof.Proof.LibDense
import Idealize.ShloMosaic.Lib.Pipeline.Value

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The body's stored values at an index of the block, against the whole arrays -/

/-- The row-wise division's stored value at block index `j` is the divided entry at array index `i`. -/
theorem div_at (x0 : Vec Ideal S5000x256 .f32) (x1 : Vec Ideal S5000x1 .f32)
    (X : FVec Ideal ⟨2, ![50000, 256]⟩ .f32) (C : FVec Ideal ⟨2, ![50000, 1]⟩ .f32) (j : S5000x256.Idx) (i : S50000x256.Idx)
    (hx : x0 j = X i) (hc : x1 (ix2 (j 0) (0 : Fin 1)) = C (ix2 (i 0) (0 : Fin 1))) :
    k2_pay1 x0 x1 j = divRows X C i := by
  obtain ⟨p, q, rfl⟩ : ∃ (p : Fin 5000) (q : Fin 256), j = ix2 p q := ⟨j 0, j 1, eq_ix2 j⟩
  unfold k2_pay1
  refine (div_payload (R := 5000) (N := 256) x0 x1 _ _ p q).trans ?_
  rw [hx, hc]
  rfl

/-! ## The index maps, decided over the grid: a row window is at block `t`, the weight matrix and the bias stay put -/

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-! ## An input window's block at point `t`, read as rows of its array -/

theorem blk0 (c : Dev nD) (t : Fin cfg2.N) (y : S5000x256.Idx) (i : S50000x256.Idx)
    (h0 : (i 0).val = 5000 * t.val + (y 0).val) (h1 : (i 1).val = (y 1).val) :
    (iblk2 V c 0 t : Vec Ideal S5000x256 .f32) y = (V c main_call0_v35 : S50000x256.Idx → Elt Ideal .f32) i := by
  obtain ⟨e0, e1, -, -, -, -⟩ := idx_facts t
  unfold iblk2
  rw [View.read_apply]
  show V c main_call0_v35 _ = V c main_call0_v35 _
  congr 1
  funext a
  apply Fin.ext
  match a with
  | ⟨0, _⟩ => show win2_0.index t 0 * 5000 + 1 * (y 0).val = (i 0).val; rw [e0, h0]; omega
  | ⟨1, _⟩ => show win2_0.index t 1 * 256 + 1 * (y 1).val = (i 1).val; rw [e1, h1]; omega

theorem blk1 (c : Dev nD) (t : Fin cfg2.N) (y : S5000x1.Idx) (i : S50000x1.Idx)
    (h0 : (i 0).val = 5000 * t.val + (y 0).val) (h1 : (i 1).val = (y 1).val) :
    (iblk2 V c 1 t : Vec Ideal S5000x1 .f32) y = (V c main_arg11 : S50000x1.Idx → Elt Ideal .f32) i := by
  obtain ⟨-, -, e0, e1, -, -⟩ := idx_facts t
  unfold iblk2
  rw [View.read_apply]
  show V c main_arg11 _ = V c main_arg11 _
  congr 1
  funext a
  apply Fin.ext
  match a with
  | ⟨0, _⟩ => show win2_1.index t 0 * 5000 + 1 * (y 0).val = (i 0).val; rw [e0, h0]; omega
  | ⟨1, _⟩ => show win2_1.index t 1 * 1 + 1 * (y 1).val = (i 1).val; rw [e1, h1]; omega

/-! ## Output window 2: what a point writes back, the cover, the whole array -/

/-- Point `t` writes back block `t` of the closed form. -/
theorem flushed2 (c : Dev nD) (t : Fin cfg2.N) :
    (dat2 V c).flushed 2 t = ((cfg2.win 2).blk t).view.read (Elt Ideal) (divRows (R := 50000) (N := 256) (V c main_call0_v35) (V c main_arg11)) := by
  show (cfg2.win 2).cut (grid2.coords t) ((dat2 V c).after 2 t) = _
  rw [after2_2]
  unfold out2_2
  rw [View.canon_unit_zero hz2]
  simp only [View.ld_unit_zero (S := S5000x256) hz2, View.ld_unit_zero (S := S5000x1) hz2]
  obtain ⟨-, -, -, -, e0, e1⟩ := idx_facts t
  funext j
  have r0 : ((((cfg2.win 2).blk t).view.emb j) 0).val = 5000 * t.val + (j 0).val := by
    show win2_2.index t 0 * 5000 + 1 * (j 0).val = _; rw [e0]; omega
  have r1 : ((((cfg2.win 2).blk t).view.emb j) 1).val = (j 1).val := by
    show win2_2.index t 1 * 256 + 1 * (j 1).val = _; rw [e1]; omega
  rw [View.read_apply]
  show k2_pay1 (iblk2 V c 0 t) (iblk2 V c 1 t) ((cfg2.win 2).xinj (grid2.coords t) j)
    = (divRows (R := 50000) (N := 256) (V c main_call0_v35) (V c main_arg11)) (((cfg2.win 2).blk t).view.emb j)
  refine div_at (iblk2 V c 0 t) (iblk2 V c 1 t) (V c main_call0_v35) (V c main_arg11)
    ((cfg2.win 2).xinj (grid2.coords t) j) (((cfg2.win 2).blk t).view.emb j) ?_ ?_
  · exact blk0 V c t _ _ r0 r1
  · exact blk1 V c t _ _ r0 rfl

/-- An index of the array is in point `t`'s block iff each coordinate is in the block's range on its axis. -/
theorem mem_blk2 (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v0_0).slice (win2_2.rect t)).set ↔ _
  rw [View.set_slice_whole, Rect.mem_set_unit]
  exact Iff.rfl

/-- Row `r` is in the block of point `r / 5000`. -/
theorem cover2 (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  have hN : grid2.N = 10 := N_2
  have ht : (i 0).val / 5000 < grid2.N := by rw [hN]; omega
  refine ⟨⟨(i 0).val / 5000, ht⟩, flush2_2 _, ?_⟩
  rw [mem_blk2]
  obtain ⟨-, -, -, -, e0, e1⟩ := idx_facts ⟨(i 0).val / 5000, ht⟩
  intro a
  match a with
  | ⟨0, _⟩ =>
    show win2_2.index ⟨(i 0).val / 5000, ht⟩ 0 * 5000 ≤ (i 0).val ∧ (i 0).val < win2_2.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win2_2.index ⟨(i 0).val / 5000, ht⟩ 1 * 256 ≤ (i 1).val ∧ (i 1).val < win2_2.index ⟨(i 0).val / 5000, ht⟩ 1 * 256 + 256
    rw [e1]
    omega

/-- The output array after the region: the rows as the region found them, each divided by its normalizer. -/
theorem final2 (c : Dev nD) : (dat2 V c).arrAt 2 cfg2.N = divRows (R := 50000) (N := 256) (V c main_call0_v35) (V c main_arg11) :=
  (dat2 V c).arrAt_eq_of_cover 2 _ (fun t _ => flushed2 V c t) cover2

end Cert.KernelIdeal.Reg2

end
-- ==== Proof.RefForms.lean ====
/-
  The reference's five stages as the closed forms of the arithmetic the kernels share: its weighted vertex layer and
  its weighted vertex features; its hyperedge features, a row-wise division of the scatter-added messages; its
  weighted hyperedge layer over those; its vertex output, a row-wise division again. Each is read index by index: a
  `dot_general` with one contracted axis is the sum over `k`, the bias is one row repeated over the rows, a column of
  row weights or normalizers is repeated over the lanes, and relu is the maximum with zero.
-/
import proofs.«152743_j77644418777859_1_alg».proof.Proof.Gen.ReferenceIdeal.Read
import proofs.«152743_j77644418777859_1_alg».proof.Proof.LibDense

noncomputable section

namespace Cert.ReferenceIdeal.RefForms

open Cert.ReferenceIdeal Cert.ReferenceIdeal.Read Idealize.ShloMosaic Idealize.ShloMosaic.ValueIdx Cert.Dense

/-- The reference's `relu(v · Wᵀ + b) · n_weight` is the dense layer of `v`, the transposed weights, the bias and the vertex
    weights. -/
theorem vertex_layer (x0 : (⟨S50000x256, .f32⟩ : BufTy).Contents (Elt Ideal)) (x2 : (⟨S256x256, .f32⟩ : BufTy).Contents (Elt Ideal))
    (x3 : (⟨S256, .f32⟩ : BufTy).Contents (Elt Ideal)) (x6 : (⟨S50000x1, .f32⟩ : BufTy).Contents (Elt Ideal)) :
    val_main_v9 (F := Ideal) x0 x2 x3 x6 = layer (R := 50000) (K := 256) (N := 256) x0 (val_main_v0 (F := Ideal) x2) x3 x6 := by
  funext i
  obtain ⟨p, q, rfl⟩ : ∃ (p : Fin 50000) (q : Fin 256), i = ix2 p q := ⟨i 0, i 1, eq_ix2 i⟩
  have el : ∀ k : Fin 256, lidx_main_v1 (ix2 p q) k = ix2 p k := fun k =>
    funext fun a => Fin.ext (by match a with | ⟨0, _⟩ => rfl | ⟨1, _⟩ => rfl)
  have er : ∀ k : Fin 256, ridx_main_v1 (ix2 p q) k = ix2 k q := fun k =>
    funext fun a => Fin.ext (by match a with | ⟨0, _⟩ => rfl | ⟨1, _⟩ => rfl)
  have eb : idx_main_v2 (idx_main_v3 (ix2 p q)) = ix1 q := funext fun a => Fin.ext (by match a with | ⟨0, _⟩ => rfl)
  have ec : idx_main_v8 (ix2 p q) = ix2 p (0 : Fin 1) := funext fun a => Fin.ext (by match a with | ⟨0, _⟩ => rfl | ⟨1, _⟩ => rfl)
  rw [val_main_v9_apply, val_main_v5_apply, val_main_v4_apply, val_main_v1_apply, val_main_v3_apply, val_main_v2_apply,
    val_main_call0_v0_apply, val_main_call0_cst_apply, val_main_v8_apply, eb, ec]
  simp only [el, er]
  rfl

/-- The reference's `v · n_weight`. -/
theorem vertex_scaled (x0 : (⟨S50000x256, .f32⟩ : BufTy).Contents (Elt Ideal)) (x6 : (⟨S50000x1, .f32⟩ : BufTy).Contents (Elt Ideal)) :
    val_main_v7 (F := Ideal) x0 x6 = scaleRows (R := 50000) (N := 256) x0 x6 := by
  funext i
  obtain ⟨p, q, rfl⟩ : ∃ (p : Fin 50000) (q : Fin 256), i = ix2 p q := ⟨i 0, i 1, eq_ix2 i⟩
  have ec : idx_main_v6 (ix2 p q) = ix2 p (0 : Fin 1) := funext fun a => Fin.ext (by match a with | ⟨0, _⟩ => rfl | ⟨1, _⟩ => rfl)
  rw [val_main_v7_apply, val_main_v6_apply, ec]
  rfl

/-- The host's division of a hyperedge array by the normalizer column repeated over the lanes. -/
theorem edge_div (a : (⟨S10000x256, .f32⟩ : BufTy).Contents (Elt Ideal)) (x10 : (⟨S10000x1, .f32⟩ : BufTy).Contents (Elt Ideal)) :
    Host.divf a (val_main_v26 (F := Ideal) x10) = divRows (R := 10000) (N := 256) a x10 := by
  funext i
  obtain ⟨p, q, rfl⟩ : ∃ (p : Fin 10000) (q : Fin 256), i = ix2 p q := ⟨i 0, i 1, eq_ix2 i⟩
  have ec : idx_main_v26 (ix2 p q) = ix2 p (0 : Fin 1) := funext fun a => Fin.ext (by match a with | ⟨0, _⟩ => rfl | ⟨1, _⟩ => rfl)
  change Ideal.div (a (ix2 p q)) (val_main_v26 (F := Ideal) x10 (ix2 p q)) = _
  rw [val_main_v26_apply, ec]
  rfl

/-- The host's division of a vertex array by the normalizer column repeated over the lanes. -/
theorem vertex_div (a : (⟨S50000x256, .f32⟩ : BufTy).Contents (Elt Ideal)) (x11 : (⟨S50000x1, .f32⟩ : BufTy).Contents (Elt Ideal)) :
    Host.divf a (val_main_v52 (F := Ideal) x11) = divRows (R := 50000) (N := 256) a x11 := by
  funext i
  obtain ⟨p, q, rfl⟩ : ∃ (p : Fin 50000) (q : Fin 256), i = ix2 p q := ⟨i 0, i 1, eq_ix2 i⟩
  have ec : idx_main_v52 (ix2 p q) = ix2 p (0 : Fin 1) := funext fun a => Fin.ext (by match a with | ⟨0, _⟩ => rfl | ⟨1, _⟩ => rfl)
  change Ideal.div (a (ix2 p q)) (val_main_v52 (F := Ideal) x11 (ix2 p q)) = _
  rw [val_main_v52_apply, ec]
  rfl

section Edge
variable (x0 : (⟨S50000x256, .f32⟩ : BufTy).Contents (Elt Ideal)) (x1 : (⟨S10000x256, .f32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S50000x1, .f32⟩ : BufTy).Contents (Elt Ideal)) (x7 : (⟨S10000x1, .f32⟩ : BufTy).Contents (Elt Ideal))
  (x8 : (⟨S400000x1, .f32⟩ : BufTy).Contents (Elt Ideal)) (x10 : (⟨S10000x1, .f32⟩ : BufTy).Contents (Elt Ideal))
  (x12 x13 : (⟨S400000, .i32⟩ : BufTy).Contents (Elt Ideal))

/-- The reference's hyperedge output: the scatter-added messages divided row by row. -/
theorem edge_out :
    val_main_v27 (F := Ideal) x0 x1 x2 x3 x6 x8 x10 x12 x13
      = divRows (R := 10000) (N := 256) (val_main_v25 (F := Ideal) x0 x1 x2 x3 x6 x8 x12 x13) x10 := by
  unfold val_main_v27
  exact edge_div _ x10

/-- The reference's `relu(e_out · W'ᵀ + b') · e_weight` is the dense layer of the hyperedge output. -/
theorem edge_layer :
    val_main_v35 (F := Ideal) x0 x1 x2 x3 x4 x5 x6 x7 x8 x10 x12 x13
      = layer (R := 10000) (K := 256) (N := 256) (val_main_v27 (F := Ideal) x0 x1 x2 x3 x6 x8 x10 x12 x13) (val_main_v28 (F := Ideal) x4) x5 x7 := by
  funext i
  obtain ⟨p, q, rfl⟩ : ∃ (p : Fin 10000) (q : Fin 256), i = ix2 p q := ⟨i 0, i 1, eq_ix2 i⟩
  have el : ∀ k : Fin 256, lidx_main_v29 (ix2 p q) k = ix2 p k := fun k =>
    funext fun a => Fin.ext (by match a with | ⟨0, _⟩ => rfl | ⟨1, _⟩ => rfl)
  have er : ∀ k : Fin 256, ridx_main_v29 (ix2 p q) k = ix2 k q := fun k =>
    funext fun a => Fin.ext (by match a with | ⟨0, _⟩ => rfl | ⟨1, _⟩ => rfl)
  have eb : idx_main_v30 (idx_main_v31 (ix2 p q)) = ix1 q := funext fun a => Fin.ext (by match a with | ⟨0, _⟩ => rfl)
  have ec : idx_main_v34 (ix2 p q) = ix2 p (0 : Fin 1) := funext fun a => Fin.ext (by match a with | ⟨0, _⟩ => rfl | ⟨1, _⟩ => rfl)
  rw [val_main_v35_apply, val_main_v33_apply, val_main_v32_apply, val_main_v29_apply, val_main_v31_apply, val_main_v30_apply,
    val_main_call1_v0_apply, val_main_call1_cst_apply, val_main_v34_apply, eb, ec]
  simp only [el, er]
  rfl

end Edge

section Vertex
variable (x0 : (⟨S50000x256, .f32⟩ : BufTy).Contents (Elt Ideal)) (x1 : (⟨S10000x256, .f32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S50000x1, .f32⟩ : BufTy).Contents (Elt Ideal)) (x7 : (⟨S10000x1, .f32⟩ : BufTy).Contents (Elt Ideal))
  (x8 x9 : (⟨S400000x1, .f32⟩ : BufTy).Contents (Elt Ideal)) (x10 : (⟨S10000x1, .f32⟩ : BufTy).Contents (Elt Ideal))
  (x11 : (⟨S50000x1, .f32⟩ : BufTy).Contents (Elt Ideal))
  (x12 x13 x14 x15 : (⟨S400000, .i32⟩ : BufTy).Contents (Elt Ideal))

/-- The reference's vertex output: the scatter-added messages divided row by row. -/
theorem vertex_out :
    val_main_v53 (F := Ideal) x0 x1 x2 x3 x4 x5 x6 x7 x8 x9 x10 x11 x12 x13 x14 x15
      = divRows (R := 50000) (N := 256) (val_main_v51 (F := Ideal) x0 x1 x2 x3 x4 x5 x6 x7 x8 x9 x10 x12 x13 x14 x15) x11 := by
  unfold val_main_v53
  exact vertex_div _ x11

end Vertex

end Cert.ReferenceIdeal.RefForms

end
-- ==== Proof.Chain.lean ====
/-
  The contents of the idealized kernel program's buffers at its segment boundaries, followed from the launch memory to
  the two results. No host operation and no kernel writes an argument, so each argument buffer, wherever it is read,
  still holds its launch contents. The host transposes the two weight matrices before the first kernel. Each array a
  kernel writes is its closed form of the arrays the kernel found; each stretch of host operations between two kernels
  (wrap negative indices, gather rows, weight them, scatter-add them) is the same chain of operations the reference
  applies. So, boundary by boundary, every intermediate array is the reference's stage of the same name over the
  kernel program's own arguments, and the two results are the reference's two results.
-/
import proofs.«152743_j77644418777859_1_alg».proof.Proof.Gen.KernelIdeal.Frame
import proofs.«152743_j77644418777859_1_alg».proof.Proof.Region0
import proofs.«152743_j77644418777859_1_alg».proof.Proof.Region1
import proofs.«152743_j77644418777859_1_alg».proof.Proof.Region2
import proofs.«152743_j77644418777859_1_alg».proof.Proof.RefForms
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo (after_cons after_nil)
open Cert.Dense Cert.ReferenceIdeal.Read Cert.ReferenceIdeal.RefForms
open Idealize.ShloMosaic.Pipeline (Dat)

variable (m : (ℓ : Loc nD τ sig) → Buf (Elt Ideal) ℓ) (ρ : Dev nD → PrngReg)

/-- A buffer that no operation of a host stretch writes holds after the stretch what it held before. -/
macro "keep_host" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The argument buffers where they are read: as launched -/

theorem keep1_main_arg0 (c : Dev nD) : V1 m ρ c main_arg0 = m ((c : Thread nD τ).loc main_arg0) :=
  calc V1 m ρ c main_arg0
    _ = W0 m ρ c (Proc.devRef .tc main_arg0) := by keep_host hostOps0
    _ = m ((c : Thread nD τ).loc main_arg0) := rfl

theorem keep1_main_arg6 (c : Dev nD) : V1 m ρ c main_arg6 = m ((c : Thread nD τ).loc main_arg6) :=
  calc V1 m ρ c main_arg6
    _ = W0 m ρ c (Proc.devRef .tc main_arg6) := by keep_host hostOps0
    _ = m ((c : Thread nD τ).loc main_arg6) := rfl

theorem keep1_main_arg3 (c : Dev nD) : V1 m ρ c main_arg3 = m ((c : Thread nD τ).loc main_arg3) :=
  calc V1 m ρ c main_arg3
    _ = W0 m ρ c (Proc.devRef .tc main_arg3) := by keep_host hostOps0
    _ = m ((c : Thread nD τ).loc main_arg3) := rfl

theorem keep2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by keep_host hostOps0
    _ = m ((c : Thread nD τ).loc main_arg1) := rfl

theorem keep2_main_arg13 (c : Dev nD) : W2 m ρ c (Proc.devRef .tc main_arg13) = m ((c : Thread nD τ).loc main_arg13) :=
  calc W2 m ρ c (Proc.devRef .tc main_arg13)
    _ = W1 m ρ c (Proc.devRef .tc main_arg13) := W2_of_ne m ρ c main_arg13 (by decide)
    _ = W0 m ρ c (Proc.devRef .tc main_arg13) := by keep_host hostOps0
    _ = m ((c : Thread nD τ).loc main_arg13) := rfl

theorem keep2_main_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := by keep_host hostOps0
    _ = m ((c : Thread nD τ).loc main_arg12) := rfl

theorem keep2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by keep_host hostOps0
    _ = m ((c : Thread nD τ).loc main_arg8) := rfl

theorem keep3_main_arg10 (c : Dev nD) : V3 m ρ c main_arg10 = m ((c : Thread nD τ).loc main_arg10) :=
  calc V3 m ρ c main_arg10
    _ = W2 m ρ c (Proc.devRef .tc main_arg10) := by keep_host hostOps1
    _ = W1 m ρ c (Proc.devRef .tc main_arg10) := W2_of_ne m ρ c main_arg10 (by decide)
    _ = W0 m ρ c (Proc.devRef .tc main_arg10) := by keep_host hostOps0
    _ = m ((c : Thread nD τ).loc main_arg10) := rfl

theorem keep3_main_arg5 (c : Dev nD) : V3 m ρ c main_arg5 = m ((c : Thread nD τ).loc main_arg5) :=
  calc V3 m ρ c main_arg5
    _ = W2 m ρ c (Proc.devRef .tc main_arg5) := by keep_host hostOps1
    _ = W1 m ρ c (Proc.devRef .tc main_arg5) := W2_of_ne m ρ c main_arg5 (by decide)
    _ = W0 m ρ c (Proc.devRef .tc main_arg5) := by keep_host hostOps0
    _ = m ((c : Thread nD τ).loc main_arg5) := rfl

theorem keep3_main_arg7 (c : Dev nD) : V3 m ρ c main_arg7 = m ((c : Thread nD τ).loc main_arg7) :=
  calc V3 m ρ c main_arg7
    _ = W2 m ρ c (Proc.devRef .tc main_arg7) := by keep_host hostOps1
    _ = W1 m ρ c (Proc.devRef .tc main_arg7) := W2_of_ne m ρ c main_arg7 (by decide)
    _ = W0 m ρ c (Proc.devRef .tc main_arg7) := by keep_host hostOps0
    _ = m ((c : Thread nD τ).loc main_arg7) := rfl

theorem keep4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := by keep_host hostOps1
    _ = W1 m ρ c (Proc.devRef .tc main_arg15) := W2_of_ne m ρ c main_arg15 (by decide)
    _ = W0 m ρ c (Proc.devRef .tc main_arg15) := by keep_host hostOps0
    _ = m ((c : Thread nD τ).loc main_arg15) := rfl

theorem keep4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := by keep_host hostOps1
    _ = W1 m ρ c (Proc.devRef .tc main_arg14) := W2_of_ne m ρ c main_arg14 (by decide)
    _ = W0 m ρ c (Proc.devRef .tc main_arg14) := by keep_host hostOps0
    _ = m ((c : Thread nD τ).loc main_arg14) := rfl

theorem keep4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by keep_host hostOps1
    _ = W1 m ρ c (Proc.devRef .tc main_arg9) := W2_of_ne m ρ c main_arg9 (by decide)
    _ = W0 m ρ c (Proc.devRef .tc main_arg9) := by keep_host hostOps0
    _ = m ((c : Thread nD τ).loc main_arg9) := rfl

theorem keep5_main_arg11 (c : Dev nD) : V5 m ρ c main_arg11 = m ((c : Thread nD τ).loc main_arg11) :=
  calc V5 m ρ c main_arg11
    _ = W4 m ρ c (Proc.devRef .tc main_arg11) := by keep_host hostOps2
    _ = W3 m ρ c (Proc.devRef .tc main_arg11) := W4_of_ne m ρ c main_arg11 (by decide)
    _ = W2 m ρ c (Proc.devRef .tc main_arg11) := by keep_host hostOps1
    _ = W1 m ρ c (Proc.devRef .tc main_arg11) := W2_of_ne m ρ c main_arg11 (by decide)
    _ = W0 m ρ c (Proc.devRef .tc main_arg11) := by keep_host hostOps0
    _ = m ((c : Thread nD τ).loc main_arg11) := rfl

/-! ## Buffers written once and read a few boundaries later -/

theorem keep_v1 (c : Dev nD) : V3 m ρ c main_call0_v1 = W1 m ρ c (Proc.devRef .tc main_call0_v1) :=
  calc V3 m ρ c main_call0_v1
    _ = W2 m ρ c (Proc.devRef .tc main_call0_v1) := by keep_host hostOps1
    _ = W1 m ρ c (Proc.devRef .tc main_call0_v1) := W2_of_ne m ρ c main_call0_v1 (by decide)

theorem keep_v2_1 (c : Dev nD) : W4 m ρ c (Proc.devRef .tc main_call0_v2_1) = W2 m ρ c (Proc.devRef .tc main_call0_v2_1) :=
  calc W4 m ρ c (Proc.devRef .tc main_call0_v2_1)
    _ = W3 m ρ c (Proc.devRef .tc main_call0_v2_1) := W4_of_ne m ρ c main_call0_v2_1 (by decide)
    _ = W2 m ρ c (Proc.devRef .tc main_call0_v2_1) := by keep_host hostOps1

theorem keep_v0_1 (c : Dev nD) : W6 m ρ c (Proc.devRef .tc main_v0_1) = W4 m ρ c (Proc.devRef .tc main_v0_1) :=
  calc W6 m ρ c (Proc.devRef .tc main_v0_1)
    _ = W5 m ρ c (Proc.devRef .tc main_v0_1) := W6_of_ne m ρ c main_v0_1 (by decide)
    _ = W4 m ρ c (Proc.devRef .tc main_v0_1) := by keep_host hostOps2

/-! ## The two transposed weight matrices -/

theorem V1_v0 (c : Dev nD) : V1 m ρ c main_call0_v0 = val_main_v0 (F := Ideal) (m ((c : Thread nD τ).loc main_arg2)) := by
  show StableHlo.after hostOps0 (W0 m ρ c) (Proc.devRef .tc main_call0_v0) = _
  after_results
  rfl

theorem V3_v1 (c : Dev nD) : V3 m ρ c main_call0_v1 = val_main_v28 (F := Ideal) (m ((c : Thread nD τ).loc main_arg4)) := by
  refine (keep_v1 m ρ c).trans ?_
  show StableHlo.after hostOps0 (W0 m ρ c) (Proc.devRef .tc main_call0_v1) = _
  after_results
  rfl

/-! ## After the first kernel: the weighted vertex layer and the weighted vertex features -/

theorem W2_v2_0 (c : Dev nD) : W2 m ρ c (Proc.devRef .tc main_call0_v2_0) = val_main_v9 (F := Ideal) (m ((c : Thread nD τ).loc main_arg0)) (m ((c : Thread nD τ).loc main_arg2)) (m ((c : Thread nD τ).loc main_arg3)) (m ((c : Thread nD τ).loc main_arg6)) := by
  rw [vertex_layer]
  refine (W2_arr m ρ c 4).trans ((Reg0.final4 (V1 m ρ) c).trans ?_)
  rw [keep1_main_arg0 m ρ c, V1_v0 m ρ c, keep1_main_arg3 m ρ c, keep1_main_arg6 m ρ c]

theorem W4_v2_1 (c : Dev nD) : W4 m ρ c (Proc.devRef .tc main_call0_v2_1) = val_main_v7 (F := Ideal) (m ((c : Thread nD τ).loc main_arg0)) (m ((c : Thread nD τ).loc main_arg6)) := by
  rw [vertex_scaled]
  refine (keep_v2_1 m ρ c).trans ((W2_arr m ρ c 5).trans ((Reg0.final5 (V1 m ρ) c).trans ?_))
  rw [keep1_main_arg0 m ρ c, keep1_main_arg6 m ρ c]

/-! ## The host stretch before the second kernel: the messages gathered, weighted and scatter-added into the hyperedges -/

set_option maxHeartbeats 4000000 in
theorem V3_v18 (c : Dev nD) : V3 m ρ c main_call0_v18
    = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg8)) (m ((c : Thread nD τ).loc main_arg12)) (m ((c : Thread nD τ).loc main_arg13)) := by
  show StableHlo.after hostOps1 (W2 m ρ c) (Proc.devRef .tc main_call0_v18) = _
  after_results_simp
  rw [keep2_main_arg1 m ρ c, keep2_main_arg13 m ρ c, keep2_main_arg12 m ρ c, keep2_main_arg8 m ρ c, W2_v2_0 m ρ c]
  rfl

/-! ## After the second kernel: the hyperedge output and the weighted hyperedge layer -/

/-- The hyperedge result is the reference's. -/
theorem out_edges (c : Dev nD) : W6 m ρ c (Proc.devRef .tc main_v0_1)
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg8)) (m ((c : Thread nD τ).loc main_arg10)) (m ((c : Thread nD τ).loc main_arg12)) (m ((c : Thread nD τ).loc main_arg13)) := by
  rw [edge_out]
  refine (keep_v0_1 m ρ c).trans ((W4_arr m ρ c 5).trans ((Reg1.final5 (V3 m ρ) c).trans ?_))
  rw [V3_v18 m ρ c, keep3_main_arg10 m ρ c]

theorem W4_v19_1 (c : Dev nD) : W4 m ρ c (Proc.devRef .tc main_call0_v19_1)
    = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg12)) (m ((c : Thread nD τ).loc main_arg13)) := by
  rw [edge_layer, edge_out]
  refine (W4_arr m ρ c 6).trans ((Reg1.final6 (V3 m ρ) c).trans ?_)
  rw [V3_v18 m ρ c, keep3_main_arg10 m ρ c, V3_v1 m ρ c, keep3_main_arg5 m ρ c, keep3_main_arg7 m ρ c]

/-! ## The host stretch before the third kernel: the messages gathered, weighted and scatter-added into the vertices -/

set_option maxHeartbeats 4000000 in
theorem V5_v35 (c : Dev nD) : V5 m ρ c main_call0_v35
    = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg12)) (m ((c : Thread nD τ).loc main_arg13)) (m ((c : Thread nD τ).loc main_arg14)) (m ((c : Thread nD τ).loc main_arg15)) := by
  show StableHlo.after hostOps2 (W4 m ρ c) (Proc.devRef .tc main_call0_v35) = _
  after_results_simp
  rw [W4_v2_1 m ρ c, keep4_main_arg15 m ρ c, keep4_main_arg14 m ρ c, keep4_main_arg9 m ρ c, W4_v19_1 m ρ c]
  rfl

/-! ## After the third kernel -/

/-- The vertex result is the reference's. -/
theorem out_vertices (c : Dev nD) : W6 m ρ c (Proc.devRef .tc main_v0_0)
    = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [vertex_out]
  refine (W6_arr m ρ c 2).trans ((Reg2.final2 (V5 m ρ) c).trans ?_)
  rw [V5_v35 m ρ c, keep5_main_arg11 m ρ c]

end Cert.KernelIdeal.Chain

end
-- ==== Proof.lean ====
/-
  The five claims for the three-kernel hypergraph convolution against its jnp reference.

  Both programs compute, over the extended reals, the same function of the sixteen arguments:
    ve    = relu(v · W₁ᵀ + b₁) · n_weight            (a dense layer on the vertices, row-weighted)
    e_out = (e ⊕ scatter_add at eidx of ve[pairs_v] · n_reg_weight) / e_reg_sum
    ev    = relu(e_out · W₂ᵀ + b₂) · e_weight        (a dense layer on the hyperedges, row-weighted)
    v_out = (v · n_weight ⊕ scatter_add at vidx of ev[pairs_e] · e_reg_weight) / n_reg_sum
  The kernel program computes the two dense layers and the two row-wise divisions in three grid kernels, block of rows by
  block of rows, and leaves the gathers and scatter-adds to the same host operations the reference uses; the reference
  does everything on the host. No algebraic law beyond reading each operation at an index is needed (the matrix
  products are the same sums over `k` in the same order, the row blocks tile the rows), so finiteness of the inputs is
  never used.

  The frames of the two kernel programs are the generated ones; the reference's frame is its generated run with the
  results dropped; no operation was rewritten by the idealization, so `preserves` is `True`.
-/
import proofs.«152743_j77644418777859_1_alg».proof.Defs
import proofs.«152743_j77644418777859_1_alg».proof.Proof.Gen.Kernel
import proofs.«152743_j77644418777859_1_alg».proof.Proof.Gen.Kernel.Skeleton
import proofs.«152743_j77644418777859_1_alg».proof.Proof.Gen.Kernel.Launch
import proofs.«152743_j77644418777859_1_alg».proof.Proof.Gen.Kernel.Points
import proofs.«152743_j77644418777859_1_alg».proof.Proof.Gen.Kernel.Frame
import proofs.«152743_j77644418777859_1_alg».proof.Proof.Gen.KernelIdeal
import proofs.«152743_j77644418777859_1_alg».proof.Proof.Gen.KernelIdeal.Skeleton
import proofs.«152743_j77644418777859_1_alg».proof.Proof.Gen.KernelIdeal.Launch
import proofs.«152743_j77644418777859_1_alg».proof.Proof.Gen.KernelIdeal.Points
import proofs.«152743_j77644418777859_1_alg».proof.Proof.Gen.KernelIdeal.Frame
import proofs.«152743_j77644418777859_1_alg».proof.Proof.Gen.ReferenceIdeal
import proofs.«152743_j77644418777859_1_alg».proof.Proof.Gen.ReferenceIdeal.Run
import proofs.«152743_j77644418777859_1_alg».proof.Proof.Gen.ReferenceIdeal.Read
import proofs.«152743_j77644418777859_1_alg».proof.Proof.Gen.Pre_finite_inputs
import proofs.«152743_j77644418777859_1_alg».proof.Proof.KRun
import proofs.«152743_j77644418777859_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the reference's two stages, the vertex output and the hyperedge output, of the kernel
    program's arguments: the kernel program by following its buffers through its three kernels and the host
    operations between them, the reference by its generated run, from arguments that agree. -/
theorem algebraic : Cert.algebraic_KernelIdeal_ReferenceIdeal := by
  intro m ρ m' ρ' _ hagree
  refine ⟨fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Chain.out_vertices m ρ c),
        (h c).2.1.trans (Cert.KernelIdeal.Chain.out_edges m ρ c), (h c).2.2⟩)
      (Cert.KernelIdeal.KRun.run_results (F := Ideal) m ρ)
  · refine (θ_run Cert.ReferenceIdeal.defs _ _).mono (fun _ h c => ?_) (Cert.ReferenceIdeal.Value.run (F := Ideal) m' ρ')
    obtain ⟨e0, e1, e2, e3, e4, e5, e6, e7, e8, e9, e10, e11, e12, e13, e14, e15⟩ := hagree c
    refine ⟨(h c).1.trans ?_, (h c).2.1.trans ?_, (h c).2.2⟩
    · refine (Cert.ReferenceIdeal.Read.val_main_v53_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans ?_
      rw [e0, e1, e2, e3, e4, e5, e6, e7, e8, e9, e10, e11, e12, e13, e14, e15]
    · refine (Cert.ReferenceIdeal.Read.val_main_v27_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))).trans ?_
      rw [e0, e1, e2, e3, e6, e8, e10, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
